-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v77)) (v3 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64 .f32) (main_arg7 : FVec F S128x64 .f32) (main_arg8 : FVec F S128 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16384x128 .f32) (main_arg1 : IVec S2x262144 32) (main_arg2 : IVec S16384 32) (main_arg3 : FVec F S256x128 .f32) (main_arg4 : FVec F S256 .f32) (main_arg5 : FVec F S64x256 .f32) (main_arg6 : FVec F S64 .f32) (main_arg7 : FVec F S128x64 .f32) (main_arg8 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_arg8 main_v13 main_v16
-- ==== Kernel.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S278528x128 : Shape := ⟨2, ![278528, 128]⟩
abbrev S128x256 : Shape := ⟨2, ![128, 256]⟩
abbrev S16384x256 : Shape := ⟨2, ![16384, 256]⟩
abbrev S1x256 : Shape := ⟨2, ![1, 256]⟩
abbrev S256x64 : Shape := ⟨2, ![256, 64]⟩
abbrev S16384x64 : Shape := ⟨2, ![16384, 64]⟩
abbrev S1x64 : Shape := ⟨2, ![1, 64]⟩
abbrev S16 : Shape := ⟨1, ![16]⟩
abbrev S16384x1 : Shape := ⟨2, ![16384, 1]⟩
abbrev S16x64 : Shape := ⟨2, ![16, 64]⟩
abbrev S16x1 : Shape := ⟨2, ![16, 1]⟩
abbrev S64x128 : Shape := ⟨2, ![64, 128]⟩
abbrev S16x128 : Shape := ⟨2, ![16, 128]⟩
abbrev S1x128 : Shape := ⟨2, ![1, 128]⟩
abbrev S16384x16384 : Shape := ⟨2, ![16384, 16384]⟩
abbrev S1024x64 : Shape := ⟨2, ![1024, 64]⟩
abbrev S4096x64 : Shape := ⟨2, ![4096, 64]⟩
abbrev S1024x4096 : Shape := ⟨2, ![1024, 4096]⟩

abbrev nBuf : Space → Nat
  | .hbm => 109
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S16384, .i32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S_, .i32⟩
  | .hbm, ⟨50, _⟩ => ⟨S278528, .i32⟩
  | .hbm, ⟨51, _⟩ => ⟨S278528, .i1⟩
  | .hbm, ⟨52, _⟩ => ⟨S_, .i32⟩
  | .hbm, ⟨53, _⟩ => ⟨S278528, .i32⟩
  | .hbm, ⟨54, _⟩ => ⟨S278528, .i32⟩
  | .hbm, ⟨55, _⟩ => ⟨S278528, .i32⟩
  | .hbm, ⟨56, _⟩ => ⟨S278528x1, .i32⟩
  | .hbm, ⟨57, _⟩ => ⟨S278528x128, .f32⟩
  | .hbm, ⟨58, _⟩ => ⟨S278528x1, .f32⟩
  | .hbm, ⟨59, _⟩ => ⟨S278528x128, .f32⟩
  | .hbm, ⟨60, _⟩ => ⟨S278528x128, .f32⟩
  | .hbm, ⟨61, _⟩ => ⟨S_, .f32⟩
  | .hbm, ⟨62, _⟩ => ⟨S16384x128, .f32⟩
  | .hbm, ⟨63, _⟩ => ⟨S278528x1, .i32⟩
  | .hbm, ⟨64, _⟩ => ⟨S16384x128, .f32⟩
  | .hbm, ⟨65, _⟩ => ⟨S128x256, .f32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S256x64, .f32⟩
  | .hbm, ⟨74, _⟩ => ⟨S16384x64, .f32⟩
  | .hbm, ⟨75, _⟩ => ⟨S1x64, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384, .f32⟩
  | .hbm, ⟨80, _⟩ => ⟨S_, .f32⟩
  | .hbm, ⟨81, _⟩ => ⟨S16, .f32⟩
  | .hbm, ⟨82, _⟩ => ⟨S16384x1, .i32⟩
  | .hbm, ⟨83, _⟩ => ⟨S16, .f32⟩
  | .hbm, ⟨84, _⟩ => ⟨S_, .f32⟩
  | .hbm, ⟨85, _⟩ => ⟨S16x64, .f32⟩
  | .hbm, ⟨86, _⟩ => ⟨S16384x1, .i32⟩
  | .hbm, ⟨87, _⟩ => ⟨S16x64, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S16x1, .f32⟩
  | .hbm, ⟨92, _⟩ => ⟨S16x64, .f32⟩
  | .hbm, ⟨93, _⟩ => ⟨S16x64, .f32⟩
  | .hbm, ⟨94, _⟩ => ⟨S64x128, .f32⟩
  | .hbm, ⟨95, _⟩ => ⟨S16x128, .f32⟩
  | .hbm, ⟨96, _⟩ => ⟨S1x128, .f32⟩
  | .hbm, ⟨97, _⟩ => ⟨S16x128, .f32⟩
  | .hbm, ⟨98, _⟩ => ⟨S16x128, .f32⟩
  | .hbm, ⟨99, _⟩ => ⟨S_, .i32⟩
  | .hbm, ⟨100, _⟩ => ⟨S16384, .i32⟩
  | .hbm, ⟨101, _⟩ => ⟨S16384, .i1⟩
  | .hbm, ⟨102, _⟩ => ⟨S_, .i32⟩
  | .hbm, ⟨103, _⟩ => ⟨S16384, .i32⟩
  | .hbm, ⟨104, _⟩ => ⟨S16384, .i32⟩
  | .hbm, ⟨105, _⟩ => ⟨S16384, .i32⟩
  | .hbm, ⟨106, _⟩ => ⟨S16384x1, .i32⟩
  | .hbm, ⟨107, _⟩ => ⟨S16384x128, .f32⟩
  | .hbm, ⟨108, _⟩ => ⟨S16384x16384, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S4096x64, .f32⟩
  | .local _ .vmem, ⟨4, _⟩ => ⟨S1024x4096, .f32⟩
  | .local _ .vmem, ⟨5, _⟩ => ⟨S1024x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x128_0_1 : S278528x1.BroadcastsInDim S278528x128 (![0, 1] : Fin 2 → Fin S278528x128.rank)
  bcast_S_S16384x128 : S_.BroadcastsInDim S16384x128 (![] : Fin 0 → Fin S16384x128.rank)
  transposes_S256x128_S128x256_1_0 : S256x128.Transposes [1, 0] S128x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16 : S_.BroadcastsInDim S16 (![] : Fin 0 → Fin S16.rank)
  bcast_S16384_S16384x1_0 : S16384.BroadcastsInDim S16384x1 (![0] : Fin 1 → Fin S16384x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S128x64_S64x128_1_0 : S128x64.Transposes [1, 0] S64x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1024x4096_S1024x4096_0_0 : ∀ a, (![0, 0] : Fin 2 → Nat) a + S1024x4096.size a ≤ S1024x4096.size a
  h_S1024x4096 : 0 < S1024x4096.numel
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  gather_S16384x128_S278528x1_S278528x128_1_0_n_n_0_1_1128_wf : GatherDims.WF S16384x128 S278528x1 S278528x128 [1] [0] [] [0] [] 1 ![1, 128]
  scatter_S16384x128_S278528x1_S278528x128_1_0_0_1_wf : ScatterDims.WF S16384x128 S278528x1 S278528x128 [1] [0] [0] 1
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  scatter_S16_S16384x1_S16384_n_0_0_1_wf : ScatterDims.WF S16 S16384x1 S16384 [] [0] [0] 1
  scatter_S16x64_S16384x1_S16384x64_1_0_0_1_wf : ScatterDims.WF S16x64 S16384x1 S16384x64 [1] [0] [0] 1
  dot_S16x64_S64x128_S16x128_1_0_0_1_n_n_wf : DotDims.WF S16x64 S64x128 S16x128 [1] [0] [0] [1] [] []
  gather_S16x128_S16384x1_S16384x128_1_0_n_n_0_1_1128_wf : GatherDims.WF S16x128 S16384x1 S16384x128 [1] [0] [] [0] [] 1 ![1, 128]
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S16384x64.size a
  hwx0_1 : ∀ i : grid0.Coords, EltTy.bits .f32 = 32 ∨ (Rect.block (s := S16384x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S16384x16384.size a
  hwx0_2 : ∀ i : grid0.Coords, EltTy.bits .f32 = 32 ∨ (Rect.block (s := S16384x16384) S1024x4096.size (cc0_transform_2 i) (hinb0_2 i)).WholeWords (EltTy.packing .f32)

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x128_S278528x1_S278528x128_1_0_n_n_0_1_1128 : GatherDims S16384x128 S278528x1 S278528x128 where
  offsetDims := [1]
  collapsedSliceDims := [0]
  operandBatchingDims := []
  startIndicesBatchingDims := []
  startIndexMap := [0]
  indexVectorDim := 1
  sliceSizes := ![1, 128]
  wf := gather_S16384x128_S278528x1_S278528x128_1_0_n_n_0_1_1128_wf
def scatter_S16384x128_S278528x1_S278528x128_1_0_0_1 : ScatterDims S16384x128 S278528x1 S278528x128 where
  updateWindowDims := [1]
  insertedWindowDims := [0]
  scatterDimsToOperandDims := [0]
  indexVectorDim := 1
  wf := scatter_S16384x128_S278528x1_S278528x128_1_0_0_1_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf
def scatter_S16x64_S16384x1_S16384x64_1_0_0_1 : ScatterDims S16x64 S16384x1 S16384x64 where
  updateWindowDims := [1]
  insertedWindowDims := [0]
  scatterDimsToOperandDims := [0]
  indexVectorDim := 1
  wf := scatter_S16x64_S16384x1_S16384x64_1_0_0_1_wf
def dot_S16x64_S64x128_S16x128_1_0_0_1_n_n : DotDims S16x64 S64x128 S16x128 where
  lhsContracting := [1]
  rhsContracting := [0]
  lhsNonContracting := [0]
  rhsNonContracting := [1]
  lhsBatch := []
  rhsBatch := []
  wf := dot_S16x64_S64x128_S16x128_1_0_0_1_n_n_wf
def gather_S16x128_S16384x1_S16384x128_1_0_n_n_0_1_1128 : GatherDims S16x128 S16384x1 S16384x128 where
  offsetDims := [1]
  collapsedSliceDims := [0]
  operandBatchingDims := []
  startIndicesBatchingDims := []
  startIndexMap := [0]
  indexVectorDim := 1
  sliceSizes := ![1, 128]
  wf := gather_S16x128_S16384x1_S16384x128_1_0_n_n_0_1_1128_wf
def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_v53) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x262144 : Shape := ⟨2, ![2, 262144]⟩
abbrev S16384 : Shape := ⟨1, ![16384]⟩
abbrev S256x128 : Shape := ⟨2, ![256, 128]⟩
abbrev S256 : Shape := ⟨1, ![256]⟩
abbrev S64x256 : Shape := ⟨2, ![64, 256]⟩
abbrev S64 : Shape := ⟨1, ![64]⟩
abbrev S128x64 : Shape := ⟨2, ![128, 64]⟩
abbrev S128 : Shape := ⟨1, ![128]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S128x256 : Shape := ⟨2, ![128, 256]⟩
abbrev S16384x256 : Shape := ⟨2, ![16384, 256]⟩
abbrev S278528x256 : Shape := ⟨2, ![278528, 256]⟩
abbrev S1x256 : Shape := ⟨2, ![1, 256]⟩
abbrev S256x64 : Shape := ⟨2, ![256, 64]⟩
abbrev S16384x64 : Shape := ⟨2, ![16384, 64]⟩
abbrev S1x64 : Shape := ⟨2, ![1, 64]⟩
abbrev S16 : Shape := ⟨1, ![16]⟩
abbrev S16384x1 : Shape := ⟨2, ![16384, 1]⟩
abbrev S16x64 : Shape := ⟨2, ![16, 64]⟩
abbrev S16x1 : Shape := ⟨2, ![16, 1]⟩
abbrev S64x128 : Shape := ⟨2, ![64, 128]⟩
abbrev S1x128 : Shape := ⟨2, ![1, 128]⟩
abbrev S64x16384 : Shape := ⟨2, ![64, 16384]⟩
abbrev S16384x16384 : Shape := ⟨2, ![16384, 16384]⟩

abbrev nBuf : Space → Nat
  | .hbm => 118
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S16384, .i32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S128x256, .f32⟩
  | .hbm, ⟨50, _⟩ => ⟨S16384x256, .f32⟩
  | .hbm, ⟨51, _⟩ => ⟨S_, .i32⟩
  | .hbm, ⟨52, _⟩ => ⟨S278528, .i32⟩
  | .hbm, ⟨53, _⟩ => ⟨S278528, .i1⟩
  | .hbm, ⟨54, _⟩ => ⟨S_, .i32⟩
  | .hbm, ⟨55, _⟩ => ⟨S278528, .i32⟩
  | .hbm, ⟨56, _⟩ => ⟨S278528, .i32⟩
  | .hbm, ⟨57, _⟩ => ⟨S278528, .i32⟩
  | .hbm, ⟨58, _⟩ => ⟨S278528x1, .i32⟩
  | .hbm, ⟨59, _⟩ => ⟨S278528x256, .f32⟩
  | .hbm, ⟨60, _⟩ => ⟨S278528x1, .f32⟩
  | .hbm, ⟨61, _⟩ => ⟨S278528x256, .f32⟩
  | .hbm, ⟨62, _⟩ => ⟨S278528x256, .f32⟩
  | .hbm, ⟨63, _⟩ => ⟨S_, .f32⟩
  | .hbm, ⟨64, _⟩ => ⟨S16384x256, .f32⟩
  | .hbm, ⟨65, _⟩ => ⟨S278528x1, .i32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S256x64, .f32⟩
  | .hbm, ⟨74, _⟩ => ⟨S16384x64, .f32⟩
  | .hbm, ⟨75, _⟩ => ⟨S1x64, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384, .f32⟩
  | .hbm, ⟨80, _⟩ => ⟨S_, .f32⟩
  | .hbm, ⟨81, _⟩ => ⟨S16, .f32⟩
  | .hbm, ⟨82, _⟩ => ⟨S16384x1, .i32⟩
  | .hbm, ⟨83, _⟩ => ⟨S16, .f32⟩
  | .hbm, ⟨84, _⟩ => ⟨S_, .f32⟩
  | .hbm, ⟨85, _⟩ => ⟨S16x64, .f32⟩
  | .hbm, ⟨86, _⟩ => ⟨S16384x1, .i32⟩
  | .hbm, ⟨87, _⟩ => ⟨S16x64, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S16x1, .f32⟩
  | .hbm, ⟨92, _⟩ => ⟨S16x64, .f32⟩
  | .hbm, ⟨93, _⟩ => ⟨S16x64, .f32⟩
  | .hbm, ⟨94, _⟩ => ⟨S_, .i32⟩
  | .hbm, ⟨95, _⟩ => ⟨S16384, .i32⟩
  | .hbm, ⟨96, _⟩ => ⟨S16384, .i1⟩
  | .hbm, ⟨97, _⟩ => ⟨S_, .i32⟩
  | .hbm, ⟨98, _⟩ => ⟨S16384, .i32⟩
  | .hbm, ⟨99, _⟩ => ⟨S16384, .i32⟩
  | .hbm, ⟨100, _⟩ => ⟨S16384, .i32⟩
  | .hbm, ⟨101, _⟩ => ⟨S16384x1, .i32⟩
  | .hbm, ⟨102, _⟩ => ⟨S16384x64, .f32⟩
  | .hbm, ⟨103, _⟩ => ⟨S64x128, .f32⟩
  | .hbm, ⟨104, _⟩ => ⟨S16384x128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S64x16384, .f32⟩
  | .hbm, ⟨109, _⟩ => ⟨S16384x16384, .f32⟩
  | .hbm, ⟨110, _⟩ => ⟨S16384x16384, .f32⟩
  | .hbm, ⟨111, _⟩ => ⟨S16384x16384, .f32⟩
  | .hbm, ⟨112, _⟩ => ⟨S_, .f32⟩
  | .hbm, ⟨113, _⟩ => ⟨S16384x16384, .f32⟩
  | .hbm, ⟨114, _⟩ => ⟨S16384x16384, .f32⟩
  | .hbm, ⟨115, _⟩ => ⟨S_, .f32⟩
  | .hbm, ⟨116, _⟩ => ⟨S16384x16384, .f32⟩
  | .hbm, ⟨117, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  transposes_S256x128_S128x256_1_0 : S256x128.Transposes [1, 0] S128x256
  bcast_S278528x1_S278528x256_0_1 : S278528x1.BroadcastsInDim S278528x256 (![0, 1] : Fin 2 → Fin S278528x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16 : S_.BroadcastsInDim S16 (![] : Fin 0 → Fin S16.rank)
  bcast_S16384_S16384x1_0 : S16384.BroadcastsInDim S16384x1 (![0] : Fin 1 → Fin S16384x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x64_S64x16384_1_0 : S16384x64.Transposes [1, 0] S64x16384
  bcast_S_S16384x16384 : S_.BroadcastsInDim S16384x16384 (![] : Fin 0 → Fin S16384x16384.rank)
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x128_S128x256_S16384x256_1_0_0_1_n_n_wf : DotDims.WF S16384x128 S128x256 S16384x256 [1] [0] [0] [1] [] []
  gather_S16384x256_S278528x1_S278528x256_1_0_n_n_0_1_1256_wf : GatherDims.WF S16384x256 S278528x1 S278528x256 [1] [0] [] [0] [] 1 ![1, 256]
  scatter_S16384x256_S278528x1_S278528x256_1_0_0_1_wf : ScatterDims.WF S16384x256 S278528x1 S278528x256 [1] [0] [0] 1
  dot_S16384x256_S256x64_S16384x64_1_0_0_1_n_n_wf : DotDims.WF S16384x256 S256x64 S16384x64 [1] [0] [0] [1] [] []
  scatter_S16_S16384x1_S16384_n_0_0_1_wf : ScatterDims.WF S16 S16384x1 S16384 [] [0] [0] 1
  scatter_S16x64_S16384x1_S16384x64_1_0_0_1_wf : ScatterDims.WF S16x64 S16384x1 S16384x64 [1] [0] [0] 1
  gather_S16x64_S16384x1_S16384x64_1_0_n_n_0_1_164_wf : GatherDims.WF S16x64 S16384x1 S16384x64 [1] [0] [] [0] [] 1 ![1, 64]
  dot_S16384x64_S64x128_S16384x128_1_0_0_1_n_n_wf : DotDims.WF S16384x64 S64x128 S16384x128 [1] [0] [0] [1] [] []
  dot_S16384x64_S64x16384_S16384x16384_1_0_0_1_n_n_wf : DotDims.WF S16384x64 S64x16384 S16384x16384 [1] [0] [0] [1] [] []

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S278528x1_S278528x256_1_0_n_n_0_1_1256 : GatherDims S16384x256 S278528x1 S278528x256 where
  offsetDims := [1]
  collapsedSliceDims := [0]
  operandBatchingDims := []
  startIndicesBatchingDims := []
  startIndexMap := [0]
  indexVectorDim := 1
  sliceSizes := ![1, 256]
  wf := gather_S16384x256_S278528x1_S278528x256_1_0_n_n_0_1_1256_wf
def scatter_S16384x256_S278528x1_S278528x256_1_0_0_1 : ScatterDims S16384x256 S278528x1 S278528x256 where
  updateWindowDims := [1]
  insertedWindowDims := [0]
  scatterDimsToOperandDims := [0]
  indexVectorDim := 1
  wf := scatter_S16384x256_S278528x1_S278528x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf
def scatter_S16x64_S16384x1_S16384x64_1_0_0_1 : ScatterDims S16x64 S16384x1 S16384x64 where
  updateWindowDims := [1]
  insertedWindowDims := [0]
  scatterDimsToOperandDims := [0]
  indexVectorDim := 1
  wf := scatter_S16x64_S16384x1_S16384x64_1_0_0_1_wf
def gather_S16x64_S16384x1_S16384x64_1_0_n_n_0_1_164 : GatherDims S16x64 S16384x1 S16384x64 where
  offsetDims := [1]
  collapsedSliceDims := [0]
  operandBatchingDims := []
  startIndicesBatchingDims := []
  startIndexMap := [0]
  indexVectorDim := 1
  sliceSizes := ![1, 64]
  wf := gather_S16x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KTilesBits.lean ====
/-
  The run of the program around its one tiled call, and what each array holds at the end.

  The call walks a 16 × 4 grid. At point (i, j) it is handed rows 1024·i … 1024·i+1023 of the node embedding
  z [16384, 64] through one window and rows 4096·j … 4096·j+4095 of the SAME array through a second window, and
  writes the [1024, 4096] tile (i, j) of the result. Both input windows read one array, so the array is lent to
  them in two halves of its ownership, which are put together again when the call ends; the array itself is
  never written. The body loads the two blocks, forms their product along the shared axis of length 64,
  applies the logistic function, and stores the whole tile.

  Stated for any float instance: the same text serves the word-level program and the idealized one.
-/
import proofs.«104691_j66305705116124_2_alg».proof.Proof.Gen.Kernel.Launch
import proofs.«104691_j66305705116124_2_alg».proof.Proof.Gen.Kernel.Skeleton
import proofs.«104691_j66305705116124_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What each buffer of the TensorCore holds when the call is entered: the launch contents carried through the five
    stretches of host operations. -/
abbrev entry (c : Dev nD) (b : Ref sig .tc) : Buf (Elt F) ((c : Thread nD τ).loc b) :=
  StableHlo.after (List.flatten [hostOps0, hostOps0_1, hostOps0_2, hostOps0_3, hostOps0_4]) (fun b => m (c, b)) b

theorem ops0_fresh : (hostOps0 : List (HloOp τ sig (Elt F))).Forall fun op => op.fresh = ∅ := by
  simp only [List.Forall]; repeat' constructor
theorem ops1_fresh : (hostOps0_1 : List (HloOp τ sig (Elt F))).Forall fun op => op.fresh = ∅ := by
  simp only [List.Forall]; repeat' constructor
theorem ops2_fresh : (hostOps0_2 : List (HloOp τ sig (Elt F))).Forall fun op => op.fresh = ∅ := by
  simp only [List.Forall]; repeat' constructor
theorem ops3_fresh : (hostOps0_3 : List (HloOp τ sig (Elt F))).Forall fun op => op.fresh = ∅ := by
  simp only [List.Forall]; repeat' constructor
theorem ops4_fresh : (hostOps0_4 : List (HloOp τ sig (Elt F))).Forall fun op => op.fresh = ∅ := by
  simp only [List.Forall]; repeat' constructor

/-- The program is its host operations followed by the call, so the call is entered at `entry`. -/
theorem upToCall (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨ops0_fresh, ops1_fresh, ops2_fresh, ops3_fresh, ops4_fresh⟩) main_chain

/-- The buffers the operations of stretch 0 write. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 1 write. -/
abbrev wr1 : List (Ref sig .tc) := [main_call0_v0, main_call0_v1, main_v14]
theorem wr1_sub : (hostOps0_1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 2 write. -/
abbrev wr2 : List (Ref sig .tc) := [main_c, main_v15, main_v16, main_c_3, main_v17, main_v18, main_v19, main_v20, main_v21, main_c_4, main_v22, main_v23, main_c_5, main_v24, main_v25, main_v26, main_v27, main_v28, main_v29, main_c_6, main_v30, main_v31, main_c_7, main_v32, main_v33, main_v34, main_v35, main_v36, main_v37, main_v38, main_v39, main_cst_8, main_v40, main_v41, main_v42, main_v43, main_v44, main_v45, main_v46, main_v47]
theorem wr2_sub : (hostOps0_2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 3 write. -/
abbrev wr3 : List (Ref sig .tc) := [main_call1_cst, main_call1_v0, main_v48]
theorem wr3_sub : (hostOps0_3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 4 write. -/
abbrev wr4 : List (Ref sig .tc) := [main_v49, main_v50, main_v51, main_v52, main_v53, main_cst_9, main_v54, main_cst_10, main_v55, main_v56, main_v57, main_cst_11, main_v58, main_v59, main_v60, main_cst_12, main_v61, main_v62, main_v63, main_v64, main_v65, main_v66, main_v67, main_v68, main_v69, main_v70, main_c_13, main_v71, main_v72, main_c_14, main_v73, main_v74, main_v75, main_v76, main_v77]
theorem wr4_sub : (hostOps0_4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer none of the host operations writes is found by the call as launched. -/
theorem entry_of_unwritten (c : Dev nD) (r : Ref sig .tc) (h0 : r ∉ wr0) (h1 : r ∉ wr1) (h2 : r ∉ wr2) (h3 : r ∉ wr3) (h4 : r ∉ wr4) :
    entry m c r = m ((c : Thread nD τ).loc r) := by
  show StableHlo.after (hostOps0 ++ (hostOps0_1 ++ (hostOps0_2 ++ (hostOps0_3 ++ (hostOps0_4 ++ []))))) (fun b => m (c, b)) (Proc.devRef .tc r) = _
  rw [List.append_nil, StableHlo.after_append, StableHlo.after_append, StableHlo.after_append, StableHlo.after_append,
    StableHlo.after_of_writes_sub hostOps0_4 _ wr4_sub h4, StableHlo.after_of_writes_sub hostOps0_3 _ wr3_sub h3,
    StableHlo.after_of_writes_sub hostOps0_2 _ wr2_sub h2, StableHlo.after_of_writes_sub hostOps0_1 _ wr1_sub h1,
    StableHlo.after_of_writes_sub hostOps0 _ wr0_sub h0]

/-- The argument arrays are written by no host operation: the call is entered with each as launched. -/
theorem entry_arg (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    entry m c b = m ((c : Thread nD τ).loc b) := by
  rcases hb with rfl | rfl | rfl | rfl | rfl | rfl | rfl | rfl | rfl <;>
  exact entry_of_unwritten m c _ (by decide) (by decide) (by decide) (by decide) (by decide)

/-! ## The windows' blocks -/

/-- Window `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The row window's staging buffer holds its block at every point, fetched there or not (it is fetched only when the
    row index moves; the body leaves it in place). -/
theorem found_rows {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The column window's staging buffer likewise. -/
theorem found_cols {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body -/

abbrev rRows : Rect S1024x64 := Rect.unit (s := S1024x64) ![0, 0] S1024x64.size inb_S1024x64_S1024x64_0_0
abbrev rCols : Rect S4096x64 := Rect.unit (s := S4096x64) ![0, 0] S4096x64.size inb_S4096x64_S4096x64_0_0
abbrev rTile : Rect S1024x4096 := Rect.unit (s := S1024x4096) ![0, 0] S1024x4096.size inb_S1024x4096_S1024x4096_0_0

/-- What the body leaves in the result window's buffer, from the two input blocks: its one store, of the whole tile. -/
def tile (x0 : Vec F S1024x64 .f32) (x1 : Vec F S4096x64 .f32) : Vec F S1024x4096 .f32 :=
  View.canon [⟨rTile, k0_pay1 (View.ld x0 rRows) (View.ld x1 rCols)⟩]

/-- The one store covers the buffer. -/
theorem tile_covered (p0 : Vec F S1024x4096 .f32) (y : S1024x4096.Idx) :
    ∃ pc ∈ ([⟨rTile, p0⟩] : List (View.Piece (Elt F) S1024x4096 .f32)), y ∈ pc.1.set :=
  View.cover_of_tiled [⟨rTile, p0⟩] S1024x4096.size (by rfl) y

set_option maxHeartbeats 1000000 in
/-- The body on whole staging buffers, the inputs' at contents `x0`, `x1` and the result's at anything, runs to the
    end leaving the inputs as they were and the result's buffer at `tile x0 x1`. -/
theorem body_runs (c : Dev nD) (E : Set ℕ) (i : grid0.Coords) (arg2 : Memref sig .tc .vmem S1024x64 .f32) (harg2 : arg2.IsWhole)
    (arg3 : Memref sig .tc .vmem S4096x64 .f32) (harg3 : arg3.IsWhole) (arg4 : Memref sig .tc .vmem S1024x4096 .f32) (harg4 : arg4.IsWhole)
    (x0 : Vec F S1024x64 .f32) (x1 : Vec F S4096x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__abat_kernel i arg2 harg2 arg3 harg3 arg4 harg4) K := by
  simp only [cc0__abat_kernel_eq_skeleton]; unfold cc0__abat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The call's proof data -/

/-- On core `c`: the arrays as the call finds them; after the body at point `t` each input's buffer at its block and
    the result's at the tile of the two blocks; nothing carried from point to point; nothing owed. The embedding is
    read by two windows, each holding half of it; the result is held whole. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => tile (blk m c 0 t) (blk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem A_eq (c : Dev nD) (w : Fin cfg0.W) : (dats m 0 c).A w = entry m c (Pipeline.arrRef spec0 w) := by
  dsimp only [dats]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_tile (c : Dev nD) (t : Fin cfg0.N) : (dats m 0 c).after 2 t = tile (blk m c 0 t) (blk m c 1 t) := by dsimp only [dats]

theorem before_rows (c : Dev nD) (t : Fin cfg0.N) (d) : (dats m 0 c).before 0 t d = blk m c 0 t :=
  found_rows m (dats m 0 c) (A_eq m c 0) (after_rows m c) t d
theorem before_cols (c : Dev nD) (t : Fin cfg0.N) (d) : (dats m 0 c).before 1 t d = blk m c 1 t :=
  found_cols m (dats m 0 c) (A_eq m c 1) (after_cols m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_runs c Set.univ (grid0.coords t) _ _ _ _ _ _ (blk m c 0 t) (blk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

end Cert.Kernel.Tiles

end
-- ==== Proof.KRunBits.lean ====
/-
  The tiled call is launched: the arrays are lent to its windows, every grid point's body runs, and the arrays are
  read back. The node embedding is read by TWO input windows, so its buffer is lent in two halves, one per window;
  the result is lent whole. Everything the call does not stage passes by it untouched.
-/
import proofs.«104691_j66305705116124_2_alg».proof.Proof.KTilesBits

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Lending the arrays, and the run -/

theorem share_rows (c : Dev nD) : (dats m 0 c).share 0 = fullShare.left := rfl
theorem share_cols (c : Dev nD) : (dats m 0 c).share 1 = fullShare.right := rfl
theorem share_tile (c : Dev nD) : (dats m 0 c).share 2 = fullShare := rfl
theorem start_eq (c : Dev nD) (w : Fin cfg0.W) : (dats m 0 c).arrAt w 0 = entry m c (Pipeline.arrRef spec0 w) := A_eq m c w

set_option maxHeartbeats 1000000 in
/-- The two buffers behind the three windows, each held whole, are what the call is lent: the embedding split into its
    two halves, one per input window, and the result whole. -/
theorem lend (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have himg : Finset.univ.image (Pipeline.arrRef spec0) = {main_v53, main_v78} := by decide
  have hne : (main_v53 : Ref sig .tc) ∉ ({main_v78} : Finset (Ref sig .tc)) := by decide
  unfold Pipeline.arrBufs Dat.arrays
  rw [himg, bigSep_insert hne, bigSep_singleton, bigSep_W0,
    (arr_whole0 0).set_eq_univ, (arr_whole0 2).set_eq_univ, share_rows, share_cols, share_tile]
  simp only [start_eq]
  exact (sep_mono (pointsTo_share (PosShare.mem_left_op_right fullShare)).1 .rfl).trans sep_assoc

set_option maxHeartbeats 4000000 in
set_option backward.isDefEq.respectTransparency.types false in
/-- From any memory with zero counters, every weakly fair execution of the program terminates, and at the end every
    array of the call holds what its write-backs left and every other unscoped buffer what the call found in it. -/
theorem run_call : θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := upToCall m Variants.none)
    (hsplit := lend m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-- The argument arrays end as launched: each is staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (entry_arg m c _ (by simp)),
     ((h c).2 main_arg1 (Pipeline.mem_restRefs_of main_arg1 (by decide) (by decide))).trans (entry_arg m c _ (by simp)),
     ((h c).2 main_arg2 (Pipeline.mem_restRefs_of main_arg2 (by decide) (by decide))).trans (entry_arg m c _ (by simp)),
     ((h c).2 main_arg3 (Pipeline.mem_restRefs_of main_arg3 (by decide) (by decide))).trans (entry_arg m c _ (by simp)),
     ((h c).2 main_arg4 (Pipeline.mem_restRefs_of main_arg4 (by decide) (by decide))).trans (entry_arg m c _ (by simp)),
     ((h c).2 main_arg5 (Pipeline.mem_restRefs_of main_arg5 (by decide) (by decide))).trans (entry_arg m c _ (by simp)),
     ((h c).2 main_arg6 (Pipeline.mem_restRefs_of main_arg6 (by decide) (by decide))).trans (entry_arg m c _ (by simp)),
     ((h c).2 main_arg7 (Pipeline.mem_restRefs_of main_arg7 (by decide) (by decide))).trans (entry_arg m c _ (by simp)),
     ((h c).2 main_arg8 (Pipeline.mem_restRefs_of main_arg8 (by decide) (by decide))).trans (entry_arg m c _ (by simp))⟩)
    (run_call m ρ)

end Cert.Kernel.Tiles

end
-- ==== Proof.KTilesIdeal.lean ====
/-
  The run of the program around its one tiled call, and what each array holds at the end.

  The call walks a 16 × 4 grid. At point (i, j) it is handed rows 1024·i … 1024·i+1023 of the node embedding
  z [16384, 64] through one window and rows 4096·j … 4096·j+4095 of the SAME array through a second window, and
  writes the [1024, 4096] tile (i, j) of the result. Both input windows read one array, so the array is lent to
  them in two halves of its ownership, which are put together again when the call ends; the array itself is
  never written. The body loads the two blocks, forms their product along the shared axis of length 64,
  applies the logistic function, and stores the whole tile.

  Stated for any float instance: the same text serves the word-level program and the idealized one.
-/
import proofs.«104691_j66305705116124_2_alg».proof.Proof.Gen.KernelIdeal.Launch
import proofs.«104691_j66305705116124_2_alg».proof.Proof.Gen.KernelIdeal.Skeleton
import proofs.«104691_j66305705116124_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What each buffer of the TensorCore holds when the call is entered: the launch contents carried through the five
    stretches of host operations. -/
abbrev entry (c : Dev nD) (b : Ref sig .tc) : Buf (Elt F) ((c : Thread nD τ).loc b) :=
  StableHlo.after (List.flatten [hostOps0, hostOps0_1, hostOps0_2, hostOps0_3, hostOps0_4]) (fun b => m (c, b)) b

theorem ops0_fresh : (hostOps0 : List (HloOp τ sig (Elt F))).Forall fun op => op.fresh = ∅ := by
  simp only [List.Forall]; repeat' constructor
theorem ops1_fresh : (hostOps0_1 : List (HloOp τ sig (Elt F))).Forall fun op => op.fresh = ∅ := by
  simp only [List.Forall]; repeat' constructor
theorem ops2_fresh : (hostOps0_2 : List (HloOp τ sig (Elt F))).Forall fun op => op.fresh = ∅ := by
  simp only [List.Forall]; repeat' constructor
theorem ops3_fresh : (hostOps0_3 : List (HloOp τ sig (Elt F))).Forall fun op => op.fresh = ∅ := by
  simp only [List.Forall]; repeat' constructor
theorem ops4_fresh : (hostOps0_4 : List (HloOp τ sig (Elt F))).Forall fun op => op.fresh = ∅ := by
  simp only [List.Forall]; repeat' constructor

/-- The program is its host operations followed by the call, so the call is entered at `entry`. -/
theorem upToCall (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨ops0_fresh, ops1_fresh, ops2_fresh, ops3_fresh, ops4_fresh⟩) main_chain

/-- The buffers the operations of stretch 0 write. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 1 write. -/
abbrev wr1 : List (Ref sig .tc) := [main_call0_v0, main_call0_v1, main_v14]
theorem wr1_sub : (hostOps0_1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 2 write. -/
abbrev wr2 : List (Ref sig .tc) := [main_c, main_v15, main_v16, main_c_3, main_v17, main_v18, main_v19, main_v20, main_v21, main_c_4, main_v22, main_v23, main_c_5, main_v24, main_v25, main_v26, main_v27, main_v28, main_v29, main_c_6, main_v30, main_v31, main_c_7, main_v32, main_v33, main_v34, main_v35, main_v36, main_v37, main_v38, main_v39, main_cst_8, main_v40, main_v41, main_v42, main_v43, main_v44, main_v45, main_v46, main_v47]
theorem wr2_sub : (hostOps0_2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 3 write. -/
abbrev wr3 : List (Ref sig .tc) := [main_call1_cst, main_call1_v0, main_v48]
theorem wr3_sub : (hostOps0_3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers the operations of stretch 4 write. -/
abbrev wr4 : List (Ref sig .tc) := [main_v49, main_v50, main_v51, main_v52, main_v53, main_cst_9, main_v54, main_cst_10, main_v55, main_v56, main_v57, main_cst_11, main_v58, main_v59, main_v60, main_cst_12, main_v61, main_v62, main_v63, main_v64, main_v65, main_v66, main_v67, main_v68, main_v69, main_v70, main_c_13, main_v71, main_v72, main_c_14, main_v73, main_v74, main_v75, main_v76, main_v77]
theorem wr4_sub : (hostOps0_4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer none of the host operations writes is found by the call as launched. -/
theorem entry_of_unwritten (c : Dev nD) (r : Ref sig .tc) (h0 : r ∉ wr0) (h1 : r ∉ wr1) (h2 : r ∉ wr2) (h3 : r ∉ wr3) (h4 : r ∉ wr4) :
    entry m c r = m ((c : Thread nD τ).loc r) := by
  show StableHlo.after (hostOps0 ++ (hostOps0_1 ++ (hostOps0_2 ++ (hostOps0_3 ++ (hostOps0_4 ++ []))))) (fun b => m (c, b)) (Proc.devRef .tc r) = _
  rw [List.append_nil, StableHlo.after_append, StableHlo.after_append, StableHlo.after_append, StableHlo.after_append,
    StableHlo.after_of_writes_sub hostOps0_4 _ wr4_sub h4, StableHlo.after_of_writes_sub hostOps0_3 _ wr3_sub h3,
    StableHlo.after_of_writes_sub hostOps0_2 _ wr2_sub h2, StableHlo.after_of_writes_sub hostOps0_1 _ wr1_sub h1,
    StableHlo.after_of_writes_sub hostOps0 _ wr0_sub h0]

/-- The argument arrays are written by no host operation: the call is entered with each as launched. -/
theorem entry_arg (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    entry m c b = m ((c : Thread nD τ).loc b) := by
  rcases hb with rfl | rfl | rfl | rfl | rfl | rfl | rfl | rfl | rfl <;>
  exact entry_of_unwritten m c _ (by decide) (by decide) (by decide) (by decide) (by decide)

/-! ## The windows' blocks -/

/-- Window `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The row window's staging buffer holds its block at every point, fetched there or not (it is fetched only when the
    row index moves; the body leaves it in place). -/
theorem found_rows {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The column window's staging buffer likewise. -/
theorem found_cols {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body -/

abbrev rRows : Rect S1024x64 := Rect.unit (s := S1024x64) ![0, 0] S1024x64.size inb_S1024x64_S1024x64_0_0
abbrev rCols : Rect S4096x64 := Rect.unit (s := S4096x64) ![0, 0] S4096x64.size inb_S4096x64_S4096x64_0_0
abbrev rTile : Rect S1024x4096 := Rect.unit (s := S1024x4096) ![0, 0] S1024x4096.size inb_S1024x4096_S1024x4096_0_0

/-- What the body leaves in the result window's buffer, from the two input blocks: its one store, of the whole tile. -/
def tile (x0 : Vec F S1024x64 .f32) (x1 : Vec F S4096x64 .f32) : Vec F S1024x4096 .f32 :=
  View.canon [⟨rTile, k0_pay1 (View.ld x0 rRows) (View.ld x1 rCols)⟩]

/-- The one store covers the buffer. -/
theorem tile_covered (p0 : Vec F S1024x4096 .f32) (y : S1024x4096.Idx) :
    ∃ pc ∈ ([⟨rTile, p0⟩] : List (View.Piece (Elt F) S1024x4096 .f32)), y ∈ pc.1.set :=
  View.cover_of_tiled [⟨rTile, p0⟩] S1024x4096.size (by rfl) y

set_option maxHeartbeats 1000000 in
/-- The body on whole staging buffers, the inputs' at contents `x0`, `x1` and the result's at anything, runs to the
    end leaving the inputs as they were and the result's buffer at `tile x0 x1`. -/
theorem body_runs (c : Dev nD) (E : Set ℕ) (i : grid0.Coords) (arg2 : Memref sig .tc .vmem S1024x64 .f32) (harg2 : arg2.IsWhole)
    (arg3 : Memref sig .tc .vmem S4096x64 .f32) (harg3 : arg3.IsWhole) (arg4 : Memref sig .tc .vmem S1024x4096 .f32) (harg4 : arg4.IsWhole)
    (x0 : Vec F S1024x64 .f32) (x1 : Vec F S4096x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__abat_kernel i arg2 harg2 arg3 harg3 arg4 harg4) K := by
  simp only [cc0__abat_kernel_eq_skeleton]; unfold cc0__abat_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The call's proof data -/

/-- On core `c`: the arrays as the call finds them; after the body at point `t` each input's buffer at its block and
    the result's at the tile of the two blocks; nothing carried from point to point; nothing owed. The embedding is
    read by two windows, each holding half of it; the result is held whole. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => tile (blk m c 0 t) (blk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem A_eq (c : Dev nD) (w : Fin cfg0.W) : (dats m 0 c).A w = entry m c (Pipeline.arrRef spec0 w) := by
  dsimp only [dats]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_tile (c : Dev nD) (t : Fin cfg0.N) : (dats m 0 c).after 2 t = tile (blk m c 0 t) (blk m c 1 t) := by dsimp only [dats]

theorem before_rows (c : Dev nD) (t : Fin cfg0.N) (d) : (dats m 0 c).before 0 t d = blk m c 0 t :=
  found_rows m (dats m 0 c) (A_eq m c 0) (after_rows m c) t d
theorem before_cols (c : Dev nD) (t : Fin cfg0.N) (d) : (dats m 0 c).before 1 t d = blk m c 1 t :=
  found_cols m (dats m 0 c) (A_eq m c 1) (after_cols m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_runs c Set.univ (grid0.coords t) _ _ _ _ _ _ (blk m c 0 t) (blk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

end Cert.KernelIdeal.Tiles

end
-- ==== Proof.KRunIdeal.lean ====
/-
  The tiled call is launched: the arrays are lent to its windows, every grid point's body runs, and the arrays are
  read back. The node embedding is read by TWO input windows, so its buffer is lent in two halves, one per window;
  the result is lent whole. Everything the call does not stage passes by it untouched.
-/
import proofs.«104691_j66305705116124_2_alg».proof.Proof.KTilesIdeal

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Lending the arrays, and the run -/

theorem share_rows (c : Dev nD) : (dats m 0 c).share 0 = fullShare.left := rfl
theorem share_cols (c : Dev nD) : (dats m 0 c).share 1 = fullShare.right := rfl
theorem share_tile (c : Dev nD) : (dats m 0 c).share 2 = fullShare := rfl
theorem start_eq (c : Dev nD) (w : Fin cfg0.W) : (dats m 0 c).arrAt w 0 = entry m c (Pipeline.arrRef spec0 w) := A_eq m c w

set_option maxHeartbeats 1000000 in
/-- The two buffers behind the three windows, each held whole, are what the call is lent: the embedding split into its
    two halves, one per input window, and the result whole. -/
theorem lend (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have himg : Finset.univ.image (Pipeline.arrRef spec0) = {main_v53, main_v78} := by decide
  have hne : (main_v53 : Ref sig .tc) ∉ ({main_v78} : Finset (Ref sig .tc)) := by decide
  unfold Pipeline.arrBufs Dat.arrays
  rw [himg, bigSep_insert hne, bigSep_singleton, bigSep_W0,
    (arr_whole0 0).set_eq_univ, (arr_whole0 2).set_eq_univ, share_rows, share_cols, share_tile]
  simp only [start_eq]
  exact (sep_mono (pointsTo_share (PosShare.mem_left_op_right fullShare)).1 .rfl).trans sep_assoc

set_option maxHeartbeats 4000000 in
set_option backward.isDefEq.respectTransparency.types false in
/-- From any memory with zero counters, every weakly fair execution of the program terminates, and at the end every
    array of the call holds what its write-backs left and every other unscoped buffer what the call found in it. -/
theorem run_call : θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := upToCall m Variants.none)
    (hsplit := lend m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-- The argument arrays end as launched: each is staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (entry_arg m c _ (by simp)),
     ((h c).2 main_arg1 (Pipeline.mem_restRefs_of main_arg1 (by decide) (by decide))).trans (entry_arg m c _ (by simp)),
     ((h c).2 main_arg2 (Pipeline.mem_restRefs_of main_arg2 (by decide) (by decide))).trans (entry_arg m c _ (by simp)),
     ((h c).2 main_arg3 (Pipeline.mem_restRefs_of main_arg3 (by decide) (by decide))).trans (entry_arg m c _ (by simp)),
     ((h c).2 main_arg4 (Pipeline.mem_restRefs_of main_arg4 (by decide) (by decide))).trans (entry_arg m c _ (by simp)),
     ((h c).2 main_arg5 (Pipeline.mem_restRefs_of main_arg5 (by decide) (by decide))).trans (entry_arg m c _ (by simp)),
     ((h c).2 main_arg6 (Pipeline.mem_restRefs_of main_arg6 (by decide) (by decide))).trans (entry_arg m c _ (by simp)),
     ((h c).2 main_arg7 (Pipeline.mem_restRefs_of main_arg7 (by decide) (by decide))).trans (entry_arg m c _ (by simp)),
     ((h c).2 main_arg8 (Pipeline.mem_restRefs_of main_arg8 (by decide) (by decide))).trans (entry_arg m c _ (by simp))⟩)
    (run_call m ρ)

end Cert.KernelIdeal.Tiles

end
-- ==== Proof.Gram.lean ====
/-
  The adjacency estimate of a node embedding, as one function of the embedding: entry (i, j) is the logistic
  function of the inner product of rows i and j. Both programs end with this array: the kernel tile by tile,
  the reference as one matrix product followed by negate, exponential, add one, reciprocal.
-/
import Idealize.ShloMosaic.PureOps.Ideal
import Idealize.ShloMosaic.Lib.ValueIdx

noncomputable section

open scoped BigOperators

namespace Cert.Bridge

open Idealize.ShloMosaic Idealize.ShloMosaic.ValueIdx

/-- Entry (i, j) of the estimate: logistic (∑ₖ z(i,k) · z(j,k)), over the extended reals. -/
def gram (z : (⟨2, ![16384, 64]⟩ : Shape).Idx → EReal) : (⟨2, ![16384, 16384]⟩ : Shape).Idx → EReal :=
  fun i => Ideal.logistic (∑ k : Fin 64, z (ix2 (i 0) k) * z (ix2 (i 1) k))

theorem gram_apply (z : (⟨2, ![16384, 64]⟩ : Shape).Idx → EReal) (a b : Fin 16384) :
    gram z (ix2 a b) = Ideal.logistic (∑ k : Fin 64, z (ix2 a k) * z (ix2 b k)) := rfl

end Cert.Bridge

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.TileValue.lean ====
/-
  What the result array of the tiled call holds at the end, as one function of the node embedding.

  The tile written at grid point (i, j) is, entry (p, q), the logistic function of the inner product of row p of the
  row block and row q of the column block. Row p of row block i is row 1024·i + p of the embedding, row q of column
  block j is row 4096·j + q, and entry (p, q) of tile (i, j) is entry (1024·i + p, 4096·j + q) of the result: so each
  tile is the matching block of ONE array, the logistic of the Gram matrix of the embedding's rows, and the 64 tiles
  cover the result.
-/
import proofs.«104691_j66305705116124_2_alg».proof.Proof.KTilesIdeal
import proofs.«104691_j66305705116124_2_alg».proof.Proof.Gram
import proofs.«104691_j66305705116124_2_alg».proof.Proof.LibRowsTimesRows
import Idealize.ShloMosaic.Lib.Pipeline.Value
import Idealize.ShloMosaic.Lib.ValueIdx

set_option maxRecDepth 16384

noncomputable section

namespace Cert.KernelIdeal.TileValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tiles

variable (m : (ℓ : Loc nD τ sig) → Buf (Elt Ideal) ℓ) (ρ : Dev nD → PrngReg)

theorem zeros : (![0, 0] : Fin 2 → Nat) = fun _ => 0 := funext fun a => by fin_cases a <;> rfl

/-- The body's arithmetic at entry (p, q): the logistic of the inner product of row p of the first block and row q
    of the second. -/
theorem pay_apply (x0 : Vec Ideal S1024x64 .f32) (x1 : Vec Ideal S4096x64 .f32) (p : Fin 1024) (q : Fin 4096) :
    k0_pay1 (F := Ideal) x0 x1 (ix2 p q) = Ideal.logistic (∑ k : Fin 64, x0 (ix2 p k) * x1 (ix2 q k)) := by
  unfold k0_pay1
  show Ideal.logistic (FloatOps.matmul (F := Ideal) dot_S1024x64_S4096x64_S1024x4096_1_1_0_0_n_n (some .fp32)
    (shapeCast S1024x64 x0 shapeCasts_S1024x64_S1024x64) (shapeCast S4096x64 x1 shapeCasts_S4096x64_S4096x64)
    (constant (F := Ideal) S1024x4096 .f32 0x00000000#32) (ix2 p q)) = _
  rw [shapeCast_self, shapeCast_self]
  exact congrArg Ideal.logistic
    (Cert.RowsTimesRows.rowsMatmul_zero_apply Facts₀.dot_S1024x64_S4096x64_S1024x4096_1_1_0_0_n_n_wf (some .fp32) x0 x1 p q)

/-- An entry of a tile is the entry of the Gram array it lands on, given that its row of the first block is that
    entry's row of the embedding and its row of the second block that entry's column's row. -/
theorem tile_entry (z : (⟨2, ![16384, 64]⟩ : Shape).Idx → EReal) (x0 : Vec Ideal S1024x64 .f32) (x1 : Vec Ideal S4096x64 .f32)
    (y : S1024x4096.Idx) (i : (⟨2, ![16384, 16384]⟩ : Shape).Idx)
    (hrow : ∀ k : Fin 64, x0 (ix2 (y 0) k) = z (ix2 (i 0) k)) (hcol : ∀ k : Fin 64, x1 (ix2 (y 1) k) = z (ix2 (i 1) k)) :
    k0_pay1 (F := Ideal) x0 x1 y = Cert.Bridge.gram z i := by
  obtain ⟨p, q, rfl⟩ : ∃ (p : Fin 1024) (q : Fin 4096), y = ix2 p q := ⟨y 0, y 1, eq_ix2 y⟩
  rw [pay_apply]
  show _ = Ideal.logistic (∑ k : Fin 64, z (ix2 (i 0) k) * z (ix2 (i 1) k))
  exact congrArg Ideal.logistic (Finset.sum_congr rfl fun k _ => congrArg₂ (· * ·) (hrow k) (hcol k))

/-- The three index maps over the grid: the row window follows the result's row of tiles, the column window its
    column of tiles, and neither moves along the embedding's second axis. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 3 :=
  (by decide +kernel : ∀ t : Fin grid0.N, _)

/-- Every tile of the result is some grid point's. -/
theorem index_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The part of a whole tile that is written back is the tile. -/
theorem cut_whole (t : Fin cfg0.N) (X : Vec Ideal S1024x4096 .f32) (j : ((win0 2).xblock (grid0.coords t)).Idx) :
    (win0 2).cut (grid0.coords t) X j = X j := rfl

/-- An array read through the view of point t's tile of the result, at j: the array at the tile's embedding of j. -/
theorem read_tile (t : Fin cfg0.N) (f : S16384x16384.Idx → EReal) (j : ((win0 2).xblock (grid0.coords t)).Idx) :
    View.read (Elt Ideal) ((View.whole main_v78).slice ((win0 2).rect t)) f j = f (((cfg0.win 2).blk t).view.emb j) := rfl

/-- Likewise through the row window's view … -/
theorem read0_apply (t : Fin cfg0.N) (Z : S16384x64.Idx → Elt Ideal .f32) (y : S1024x64.Idx) :
    ((cfg0.win 0).blk t).view.read (Elt Ideal) Z y = Z (((cfg0.win 0).blk t).view.emb y) := rfl
/-- … and through the column window's. -/
theorem read1_apply (t : Fin cfg0.N) (Z : S16384x64.Idx → Elt Ideal .f32) (y : S4096x64.Idx) :
    ((cfg0.win 1).blk t).view.read (Elt Ideal) Z y = Z (((cfg0.win 1).blk t).view.emb y) := rfl

set_option maxHeartbeats 400000 in
/-- The row window's block is read off the embedding … -/
theorem blk0_eq (c : Dev nD) (t : Fin cfg0.N) :
    blk m c 0 t = ((cfg0.win 0).blk t).view.read (Elt Ideal) (entry m c main_v53) := by
  unfold blk
  rfl

set_option maxHeartbeats 400000 in
/-- … and so is the column window's: both windows read the one array. -/
theorem blk1_eq (c : Dev nD) (t : Fin cfg0.N) :
    blk m c 1 t = ((cfg0.win 1).blk t).view.read (Elt Ideal) (entry m c main_v53) := by
  unfold blk
  rfl

/-- Where the row window's block sits in the embedding: block index times block size plus the coordinate, per axis. -/
theorem emb0_val (t : Fin cfg0.N) (y : S1024x64.Idx) :
    ((((cfg0.win 0).blk t).view.emb y) 0).val = win0_0.index t (0 : Fin 2) * 1024 + 1 * (y 0).val
    ∧ ((((cfg0.win 0).blk t).view.emb y) 1).val = win0_0.index t (1 : Fin 2) * 64 + 1 * (y 1).val := ⟨rfl, rfl⟩
/-- Where the column window's block sits in the embedding. -/
theorem emb1_val (t : Fin cfg0.N) (y : S4096x64.Idx) :
    ((((cfg0.win 1).blk t).view.emb y) 0).val = win0_1.index t (0 : Fin 2) * 4096 + 1 * (y 0).val
    ∧ ((((cfg0.win 1).blk t).view.emb y) 1).val = win0_1.index t (1 : Fin 2) * 64 + 1 * (y 1).val := ⟨rfl, rfl⟩
/-- Where the tile sits in the result. -/
theorem emb2_val (t : Fin cfg0.N) (y : S1024x4096.Idx) :
    ((((cfg0.win 2).blk t).view.emb y) 0).val = win0_2.index t (0 : Fin 2) * 1024 + 1 * (y 0).val
    ∧ ((((cfg0.win 2).blk t).view.emb y) 1).val = win0_2.index t (1 : Fin 2) * 4096 + 1 * (y 1).val := ⟨rfl, rfl⟩

/-- What grid point t writes back is block t of the Gram array of the embedding as the call finds it. -/
theorem flushed_tile (c : Dev nD) (t : Fin cfg0.N) :
    (dats m 0 c).flushed 2 t = ((cfg0.win 2).blk t).view.read (Elt Ideal) (Cert.Bridge.gram (entry m c main_v53)) := by
  show (cfg0.win 2).cut (grid0.coords t) ((dats m 0 c).after 2 t) = _
  rw [after_tile]
  unfold tile
  rw [View.canon_unit_zero zeros]
  simp only [View.ld_unit_zero (S := S1024x64) zeros, View.ld_unit_zero (S := S4096x64) zeros]
  obtain ⟨e0, e1, e2, e3, e4, e5⟩ := index_facts t
  funext j
  refine (cut_whole t _ j).trans (Eq.trans ?_ (read_tile t _ j).symm)
  refine tile_entry (entry m c main_v53) (blk m c 0 t) (blk m c 1 t) j _ (fun k => ?_) (fun k => ?_)
  · refine (congrFun (blk0_eq m c t) _).trans ((read0_apply t _ _).trans ?_)
    refine congrArg (entry m c main_v53) (funext fun a => Fin.ext ?_)
    match a with
    | ⟨0, _⟩ => exact ((emb0_val t _).1).trans (by rw [e0]; exact ((emb2_val t j).1).symm)
    | ⟨1, _⟩ => exact ((emb0_val t _).2).trans (by rw [e1]; show 0 * 64 + 1 * k.val = k.val; omega)
  · refine (congrFun (blk1_eq m c t) _).trans ((read1_apply t _ _).trans ?_)
    refine congrArg (entry m c main_v53) (funext fun a => Fin.ext ?_)
    match a with
    | ⟨0, _⟩ => exact ((emb1_val t _).1).trans (by rw [e2]; exact ((emb2_val t j).2).symm)
    | ⟨1, _⟩ => exact ((emb1_val t _).2).trans (by rw [e3]; show 0 * 64 + 1 * k.val = k.val; omega)

/-- An index of the result is in point t's tile iff each coordinate is in the tile's range on its axis. -/
theorem mem_tile (t : Fin cfg0.N) (i : S16384x16384.Idx) :
    i ∈ ((cfg0.win 2).blk t).view.set ↔ ∀ a : Fin 2, win0_2.index t a * S1024x4096.size a ≤ (i a).val ∧ (i a).val < win0_2.index t a * S1024x4096.size a + S1024x4096.size a := by
  show i ∈ ((View.whole main_v78).slice (win0_2.rect t)).set ↔ _
  rw [View.set_slice_whole, Rect.mem_set_unit]
  exact Iff.rfl

/-- Every index of the result is in some grid point's tile. -/
theorem tiles_cover (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := index_onto ⟨(i 0).val / 1024, by omega⟩ ⟨(i 1).val / 4096, by omega⟩
  have q0 : win0_2.index t (0 : Fin 2) = (i 0).val / 1024 := congrFun ht 0
  have q1 : win0_2.index t (1 : Fin 2) = (i 1).val / 4096 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- The result array after the run: the logistic of the Gram matrix of the embedding's rows. -/
theorem result_final (c : Dev nD) : (dats m 0 c).arrAt 2 cfg0.N = Cert.Bridge.gram (entry m c main_v53) :=
  (dats m 0 c).arrAt_eq_of_cover 2 _ (fun t _ => flushed_tile m c t) (tiles_cover)

/-- The embedding is an input of the call: it ends as the call found it. -/
theorem embedding_final (c : Dev nD) : (dats m 0 c).arrAt 0 cfg0.N = entry m c main_v53 :=
  ((dats m 0 c).arrAt_in 0 rfl _).trans (A_eq m c 0)

end Cert.KernelIdeal.TileValue

end
-- ==== Proof.KernelStages.lean ====
/-
  The host side of the kernel's program as staged functions of the argument arrays. The 96 host operations that precede
  the call compute, from the edge list x1: the source and target node of every edge with a self loop appended for every
  node (krow, kcol), the symmetric normalisation d(src)^(-1/2) · d(dst)^(-1/2) of every edge from the in-degrees (knorm);
  from the features x0: the normalised neighbourhood sum followed by the two linear layers with a rectifier between them
  (kz, the node embedding); from the embedding and the graph assignment x2: the mean over each graph's nodes (kpoolOf);
  and the decoder applied to the 16 graph rows and gathered back to the nodes (kxhatOf).
-/
import proofs.«104691_j66305705116124_2_alg».proof.Proof.Gen.KernelIdeal

noncomputable section

namespace Cert.KernelIdeal.HostValue

open Cert.KernelIdeal Cert.KernelIdeal.Gen Idealize.ShloMosaic

variable {F : FTy → Type} [FloatOps F]

/-- Source node of every edge, then every node once (the self loops). -/
def krow (x1 : (⟨S2x262144, .i32⟩ : BufTy).Contents (Elt F)) : (⟨S278528, .i32⟩ : BufTy).Contents (Elt F) :=
  concatenate S278528 0 [⟨S262144, (shapeCast _ (extractStridedSlice S1x262144 ![0, 0] x1 slices_S2x262144_S1x262144_0_0) shapeCasts_S1x262144_S262144)⟩, ⟨S16384, (iotaInDim S16384 32 0)⟩] concatenates_S262144_S16384_S278528_d0

/-- Target node of every edge, then every node once. -/
def kcol (x1 : (⟨S2x262144, .i32⟩ : BufTy).Contents (Elt F)) : (⟨S278528, .i32⟩ : BufTy).Contents (Elt F) :=
  concatenate S278528 0 [⟨S262144, (shapeCast _ (extractStridedSlice S1x262144 ![1, 0] x1 slices_S2x262144_S1x262144_1_0) shapeCasts_S1x262144_S262144)⟩, ⟨S16384, (iotaInDim S16384 32 0)⟩] concatenates_S262144_S16384_S278528_d0

/-- A negative node index counts from the end: v < 0 ↦ v + 16384. -/
def kwrap (v : (⟨S278528, .i32⟩ : BufTy).Contents (Elt F)) : (⟨S278528, .i32⟩ : BufTy).Contents (Elt F) :=
  select (cmpi .slt v (broadcastInDim S278528 ![] bcast_S_S278528 (constantI S_ 32 0#32))) (addi v (broadcastInDim S278528 ![] bcast_S_S278528 (constantI S_ 32 16384#32))) v

/-- The gather indices [E, 1] of the source nodes. -/
def ksrcIdx (x1 : (⟨S2x262144, .i32⟩ : BufTy).Contents (Elt F)) : (⟨S278528x1, .i32⟩ : BufTy).Contents (Elt F) :=
  broadcastInDim S278528x1 ![0] bcast_S278528_S278528x1_0 (kwrap (F := F) (krow (F := F) x1))

/-- The scatter indices [E, 1] of the target nodes. -/
def kcolIdx (x1 : (⟨S2x262144, .i32⟩ : BufTy).Contents (Elt F)) : (⟨S278528x1, .i32⟩ : BufTy).Contents (Elt F) :=
  broadcastInDim S278528x1 ![0] bcast_S278528_S278528x1_0 (kcol (F := F) x1)

/-- In-degree of every node, self loop included. -/
def kdeg (x1 : (⟨S2x262144, .i32⟩ : BufTy).Contents (Elt F)) : (⟨S16384, .f32⟩ : BufTy).Contents (Elt F) :=
  Host.scatterAdd scatter_S16384_S278528x1_S278528_n_0_0_1 (broadcastInDim S16384 ![] bcast_S_S16384 (constant S_ .f32 0x00000000#32)) (kcolIdx (F := F) x1) (broadcastInDim S278528 ![] bcast_S_S278528 (constant S_ .f32 0x3F800000#32))

/-- deg^(-1/2) where the degree is positive, else 0. -/
def kdinv (x1 : (⟨S2x262144, .i32⟩ : BufTy).Contents (Elt F)) : (⟨S16384, .f32⟩ : BufTy).Contents (Elt F) :=
  select (cmpf (F := F) .ogt (kdeg (F := F) x1) (broadcastInDim S16384 ![] bcast_S_S16384 (constant S_ .f32 0x00000000#32))) (Host.rsqrt (kdeg (F := F) x1)) (broadcastInDim S16384 ![] bcast_S_S16384 (id (constant S_ .f32 0x00000000#32)))

/-- The weight of every edge: dinv(src) · dinv(dst). -/
def knorm (x1 : (⟨S2x262144, .i32⟩ : BufTy).Contents (Elt F)) : (⟨S278528, .f32⟩ : BufTy).Contents (Elt F) :=
  mulf (Host.gather gather_S16384_S278528x1_S278528_n_0_n_n_0_1_1 (kdinv (F := F) x1) (ksrcIdx (F := F) x1)) (Host.gather gather_S16384_S278528x1_S278528_n_0_n_n_0_1_1 (kdinv (F := F) x1) (broadcastInDim S278528x1 ![0] bcast_S278528_S278528x1_0 (kwrap (F := F) (kcol (F := F) x1))))

/-- The node embedding: the weighted neighbourhood sum of the features, the first linear layer, the rectifier, the second
    linear layer. -/
def kz (x0 : (⟨S16384x128, .f32⟩ : BufTy).Contents (Elt F)) (x1 : (⟨S2x262144, .i32⟩ : BufTy).Contents (Elt F)) (x3 : (⟨S256x128, .f32⟩ : BufTy).Contents (Elt F)) (x4 : (⟨S256, .f32⟩ : BufTy).Contents (Elt F)) (x5 : (⟨S64x256, .f32⟩ : BufTy).Contents (Elt F)) (x6 : (⟨S64, .f32⟩ : BufTy).Contents (Elt F)) : (⟨S16384x64, .f32⟩ : BufTy).Contents (Elt F) :=
  addf (Host.dotGeneral dot_S16384x256_S256x64_S16384x64_1_0_0_1_n_n none
      (maximumf
        (addf
          (Host.dotGeneral dot_S16384x128_S128x256_S16384x256_1_0_0_1_n_n none
            (Host.scatterAdd scatter_S16384x128_S278528x1_S278528x128_1_0_0_1 (broadcastInDim S16384x128 ![] bcast_S_S16384x128 (constant S_ .f32 0x00000000#32)) (kcolIdx (F := F) x1)
              (mulf (Host.gather gather_S16384x128_S278528x1_S278528x128_1_0_n_n_0_1_1128 x0 (ksrcIdx (F := F) x1)) (broadcastInDim S278528x128 ![0, 1] bcast_S278528x1_S278528x128_0_1 (broadcastInDim S278528x1 ![0] bcast_S278528_S278528x1_0 (knorm (F := F) x1)))))
            (transpose S128x256 [1, 0] x3 transposes_S256x128_S128x256_1_0))
          (broadcastInDim S16384x256 ![0, 1] bcast_S1x256_S16384x256_0_1 (broadcastInDim S1x256 ![1] bcast_S256_S1x256_1 x4)))
        (broadcastInDim S16384x256 ![] bcast_S_S16384x256 (constant S_ .f32 0x00000000#32)))
      (transpose S256x64 [1, 0] x5 transposes_S64x256_S256x64_1_0))
    (broadcastInDim S16384x64 ![0, 1] bcast_S1x64_S16384x64_0_1 (broadcastInDim S1x64 ![1] bcast_S64_S1x64_1 x6))

/-- The mean of the embedding over each graph's nodes (an empty graph divides by one). -/
def kpoolOf (z : (⟨S16384x64, .f32⟩ : BufTy).Contents (Elt F)) (x2 : (⟨S16384, .i32⟩ : BufTy).Contents (Elt F)) : (⟨S16x64, .f32⟩ : BufTy).Contents (Elt F) :=
  Host.divf (Host.scatterAdd scatter_S16x64_S16384x1_S16384x64_1_0_0_1 (broadcastInDim S16x64 ![] bcast_S_S16x64 (constant S_ .f32 0x00000000#32)) (broadcastInDim S16384x1 ![0] bcast_S16384_S16384x1_0 x2) z)
    (broadcastInDim S16x64 ![0, 1] bcast_S16x1_S16x64_0_1 (broadcastInDim S16x1 ![0] bcast_S16_S16x1_0
      (maximumf (Host.scatterAdd scatter_S16_S16384x1_S16384_n_0_0_1 (broadcastInDim S16 ![] bcast_S_S16 (constant S_ .f32 0x00000000#32)) (broadcastInDim S16384x1 ![0] bcast_S16384_S16384x1_0 x2) (broadcastInDim S16384 ![] bcast_S_S16384 (constant S_ .f32 0x3F800000#32)))
        (broadcastInDim S16 ![] bcast_S_S16 (constant S_ .f32 0x3F800000#32)))))

/-- The gather indices [N, 1] of every node's graph (a negative one counts from the end: g < 0 ↦ g + 16). -/
def kbatchIdx (x2 : (⟨S16384, .i32⟩ : BufTy).Contents (Elt F)) : (⟨S16384x1, .i32⟩ : BufTy).Contents (Elt F) :=
  broadcastInDim S16384x1 ![0] bcast_S16384_S16384x1_0 (select (cmpi .slt x2 (broadcastInDim S16384 ![] bcast_S_S16384 (constantI S_ 32 0#32))) (addi x2 (broadcastInDim S16384 ![] bcast_S_S16384 (constantI S_ 32 16#32))) x2)

/-- The reconstruction: the decoder layer on the 16 pooled rows, then every node reads its graph's row. -/
def kxhatOf (p : (⟨S16x64, .f32⟩ : BufTy).Contents (Elt F)) (x2 : (⟨S16384, .i32⟩ : BufTy).Contents (Elt F)) (x7 : (⟨S128x64, .f32⟩ : BufTy).Contents (Elt F)) (x8 : (⟨S128, .f32⟩ : BufTy).Contents (Elt F)) : (⟨S16384x128, .f32⟩ : BufTy).Contents (Elt F) :=
  Host.gather gather_S16x128_S16384x1_S16384x128_1_0_n_n_0_1_1128
    (addf (Host.dotGeneral dot_S16x64_S64x128_S16x128_1_0_0_1_n_n none p (transpose S64x128 [1, 0] x7 transposes_S128x64_S64x128_1_0))
      (broadcastInDim S16x128 ![0, 1] bcast_S1x128_S16x128_0_1 (broadcastInDim S1x128 ![1] bcast_S128_S1x128_1 x8)))
    (kbatchIdx (F := F) x2)

end Cert.KernelIdeal.HostValue

end
-- ==== Proof.KernelHost.lean ====
/-
  What the kernel's host operations leave in the buffers its call and its results read: after the 96 operations have
  run from the launch memory, the buffer of the node embedding holds kz of the arguments, the buffer of the pooled
  embedding holds kpoolOf of that and of the graph assignment, and the buffer of the reconstruction holds kxhatOf of
  that (the staged functions of the stages module). Each is the fold of the operations' result functions over the list,
  read at the one buffer: every operation's result at its own buffer is its function of its operands' buffers, and at
  every other buffer what was there.
-/
import proofs.«104691_j66305705116124_2_alg».proof.Proof.KernelStages
import proofs.«104691_j66305705116124_2_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 16000000 in
/-- What the buffer of %53 holds once the 96 host operations have run. -/
theorem entry_v53 (m : (ℓ : Loc nD τ sig) → Buf (Elt F) ℓ) (c : Dev nD) :
    StableHlo.after (List.flatten [hostOps0 (F := F), hostOps0_1, hostOps0_2, hostOps0_3, hostOps0_4]) (fun b => m (c, b)) (Proc.devRef .tc main_v53)
      = kz (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 16000000 in
/-- What the buffer of %65 holds once the 96 host operations have run. -/
theorem entry_v65 (m : (ℓ : Loc nD τ sig) → Buf (Elt F) ℓ) (c : Dev nD) :
    StableHlo.after (List.flatten [hostOps0 (F := F), hostOps0_1, hostOps0_2, hostOps0_3, hostOps0_4]) (fun b => m (c, b)) (Proc.devRef .tc main_v65)
      = kpoolOf (F := F) (kz (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2)) := by
  simp only [hostOps0, hostOps0_1, hostOps0_2, hostOps0_3, hostOps0_4, List.flatten_cons, List.flatten_nil, List.append_nil, List.cons_append, List.nil_append]
  after_results_simp <;> rfl

set_option maxRecDepth 8192 in
set_option maxHeartbeats 16000000 in
/-- What the buffer of %77 holds once the 96 host operations have run. -/
theorem entry_v77 (m : (ℓ : Loc nD τ sig) → Buf (Elt F) ℓ) (c : Dev nD) :
    StableHlo.after (List.flatten [hostOps0 (F := F), hostOps0_1, hostOps0_2, hostOps0_3, hostOps0_4]) (fun b => m (c, b)) (Proc.devRef .tc main_v77)
      = kxhatOf (F := F) (kpoolOf (F := F) (kz (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2))) (m ((c.tc : Thread nD τ).loc main_arg2)) (m ((c.tc : Thread nD τ).loc main_arg7)) (m ((c.tc : Thread nD τ).loc main_arg8)) := by
  simp only [hostOps0, hostOps0_1, hostOps0_2, hostOps0_3, hostOps0_4, List.flatten_cons, List.flatten_nil, List.append_nil, List.cons_append, List.nil_append]
  after_results_simp <;> rfl

end Cert.KernelIdeal.HostValue

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.AggCommute.lean ====
/-
  The aggregation of a graph convolution commutes with its linear map.

  One program gathers the rows x(src e, ·) of the node features, scales each by the edge's weight, adds them into the
  rows tgt e of a zero table and THEN multiplies by the transposed weight matrix; the other multiplies the node features
  by the transposed weight matrix first and aggregates the rows of the product. Read at the extended reals, at entry
  (n, o), both are Σ over the edges e with tgt e = n of (Σ_k x(src e, k) · W(o, k)) · w(e), bracketed differently; they
  agree when every entry of x, W and w is a real number (distributivity over finite sums of reals).
-/
import proofs.«104691_j66305705116124_2_alg».proof.Proof.Gen.KernelIdeal
import proofs.«104691_j66305705116124_2_alg».proof.Proof.Gen.ReferenceIdeal
import proofs.«104691_j66305705116124_2_alg».proof.Proof.LibSegmentRows
import proofs.«104691_j66305705116124_2_alg».proof.Proof.LibPlainProduct
import proofs.«104691_j66305705116124_2_alg».proof.Proof.LibHostRowForms

noncomputable section

open scoped BigOperators

namespace Cert.Bridge

open Idealize.ShloMosaic Idealize.ShloMosaic.ValueIdx Idealize.ShloMosaic.SegmentRows

/-- A weighted aggregation of rows read at an entry: gather the rows of y by the start indices J, scale row e by
    the weight w(e) (a vector broadcast to a column, then across the columns), and add the rows into a zero table by
    the scatter indices I. At (n, c) this is zero plus the sum over the edges e whose scatter index is n of
    y(row e, c) · w(e). -/
theorem weighted_rows_agg {N E C : Nat} (hN : 0 < N)
    (gw : GatherDims.WF ⟨2, ![N, C]⟩ ⟨2, ![E, 1]⟩ ⟨2, ![E, C]⟩ [1] [0] [] [0] [] 1 ![1, C])
    (sw : ScatterDims.WF ⟨2, ![N, C]⟩ ⟨2, ![E, 1]⟩ ⟨2, ![E, C]⟩ [1] [0] [0] 1)
    (hb0 : (⟨0, ![]⟩ : Shape).BroadcastsInDim ⟨2, ![N, C]⟩ (![] : Fin 0 → Fin 2))
    (hb1 : (⟨1, ![E]⟩ : Shape).BroadcastsInDim ⟨2, ![E, 1]⟩ (![0] : Fin 1 → Fin 2))
    (hb2 : (⟨2, ![E, 1]⟩ : Shape).BroadcastsInDim ⟨2, ![E, C]⟩ (![0, 1] : Fin 2 → Fin 2))
    (y : FVec Ideal ⟨2, ![N, C]⟩ .f32) (w : FVec Ideal ⟨1, ![E]⟩ .f32) (I J : IVec ⟨2, ![E, 1]⟩ 32)
    (n : Fin N) (c : Fin C) :
    Host.scatterAdd (rowScatterDims N E C sw)
        (broadcastInDim ⟨2, ![N, C]⟩ ![] hb0 (constant (F := Ideal) ⟨0, ![]⟩ .f32 0x00000000#32)) I
        (mulf (Host.gather (rowGatherDims N E C gw) y J)
          (broadcastInDim ⟨2, ![E, C]⟩ ![0, 1] hb2 (broadcastInDim ⟨2, ![E, 1]⟩ ![0] hb1 w))) (ix2 n c)
      = 0 + ∑ e : Fin E, if (I (ix2 e 0)).toInt = (n.val : Int) then y (ix2 (rowOf hN J e) c) * w (ix1 e) else 0 := by
  show Ideal.hostScatterAdd (rowScatterDims N E C sw) _ I _ (ix2 n c) = _
  rw [hostScatterAdd_rows_apply]
  congr 1
  · exact Ideal.ofBits_zero_f32
  · refine Finset.sum_congr rfl fun e _ => ?_
    rw [mulf_apply, gather_rows_apply gw J e c hN y, Cert.HostRowForms.bcast_a1_ab_apply _ _ rfl hb2 e c,
      Cert.HostRowForms.bcast_a_a1_apply w _ rfl hb1 e 0]

/-- The kernel's aggregation (gather, scale, scatter-add into zeros) at (n, k). -/
theorem kernel_agg_apply (x0 : FVec Ideal Cert.KernelIdeal.S16384x128 .f32) (nrm : FVec Ideal Cert.KernelIdeal.S278528 .f32)
    (I J : IVec Cert.KernelIdeal.S278528x1 32) (n : Fin 16384) (k : Fin 128) :
    Host.scatterAdd Cert.KernelIdeal.scatter_S16384x128_S278528x1_S278528x128_1_0_0_1
        (broadcastInDim Cert.KernelIdeal.S16384x128 ![] Cert.KernelIdeal.Facts₀.bcast_S_S16384x128
          (constant (F := Ideal) Cert.KernelIdeal.S_ .f32 0x00000000#32)) I
        (mulf (Host.gather Cert.KernelIdeal.gather_S16384x128_S278528x1_S278528x128_1_0_n_n_0_1_1128 x0 J)
          (broadcastInDim Cert.KernelIdeal.S278528x128 ![0, 1] Cert.KernelIdeal.Facts₀.bcast_S278528x1_S278528x128_0_1
            (broadcastInDim Cert.KernelIdeal.S278528x1 ![0] Cert.KernelIdeal.Facts₀.bcast_S278528_S278528x1_0 nrm)))
        (ix2 n k)
      = 0 + ∑ e : Fin 278528, if (I (ix2 e 0)).toInt = (n.val : Int)
          then x0 (ix2 (rowOf (by decide : 0 < 16384) J e) k) * nrm (ix1 e) else 0 :=
  weighted_rows_agg (by decide) Cert.KernelIdeal.Facts₀.gather_S16384x128_S278528x1_S278528x128_1_0_n_n_0_1_1128_wf
    Cert.KernelIdeal.Facts₀.scatter_S16384x128_S278528x1_S278528x128_1_0_0_1_wf
    Cert.KernelIdeal.Facts₀.bcast_S_S16384x128 Cert.KernelIdeal.Facts₀.bcast_S278528_S278528x1_0
    Cert.KernelIdeal.Facts₀.bcast_S278528x1_S278528x128_0_1 x0 nrm I J n k

/-- The reference's aggregation of the rows of a table y : [16384, 256] at (n, o). -/
theorem ref_agg_apply (y : FVec Ideal Cert.ReferenceIdeal.S16384x256 .f32) (nrm : FVec Ideal Cert.ReferenceIdeal.S278528 .f32)
    (I J : IVec Cert.ReferenceIdeal.S278528x1 32) (n : Fin 16384) (o : Fin 256) :
    Host.scatterAdd Cert.ReferenceIdeal.scatter_S16384x256_S278528x1_S278528x256_1_0_0_1
        (broadcastInDim Cert.ReferenceIdeal.S16384x256 ![] Cert.ReferenceIdeal.Facts₀.bcast_S_S16384x256
          (constant (F := Ideal) Cert.ReferenceIdeal.S_ .f32 0x00000000#32)) I
        (mulf (Host.gather Cert.ReferenceIdeal.gather_S16384x256_S278528x1_S278528x256_1_0_n_n_0_1_1256 y J)
          (broadcastInDim Cert.ReferenceIdeal.S278528x256 ![0, 1] Cert.ReferenceIdeal.Facts₀.bcast_S278528x1_S278528x256_0_1
            (broadcastInDim Cert.ReferenceIdeal.S278528x1 ![0] Cert.ReferenceIdeal.Facts₀.bcast_S278528_S278528x1_0 nrm)))
        (ix2 n o)
      = 0 + ∑ e : Fin 278528, if (I (ix2 e 0)).toInt = (n.val : Int)
          then y (ix2 (rowOf (by decide : 0 < 16384) J e) o) * nrm (ix1 e) else 0 :=
  weighted_rows_agg (by decide) Cert.ReferenceIdeal.Facts₀.gather_S16384x256_S278528x1_S278528x256_1_0_n_n_0_1_1256_wf
    Cert.ReferenceIdeal.Facts₀.scatter_S16384x256_S278528x1_S278528x256_1_0_0_1_wf
    Cert.ReferenceIdeal.Facts₀.bcast_S_S16384x256 Cert.ReferenceIdeal.Facts₀.bcast_S278528_S278528x1_0
    Cert.ReferenceIdeal.Facts₀.bcast_S278528x1_S278528x256_0_1 y nrm I J n o

/-- THE LAW: aggregating and then applying the linear map (one program) equals applying the linear map and then
    aggregating (the other), for node features, weights and edge weights with real entries, whatever the index arrays. -/
theorem agg_commute (x0 : FVec Ideal Cert.KernelIdeal.S16384x128 .f32) (x3 : FVec Ideal Cert.KernelIdeal.S256x128 .f32)
    (nrm : FVec Ideal Cert.KernelIdeal.S278528 .f32) (I J : IVec Cert.KernelIdeal.S278528x1 32)
    (hx : ∀ i, ∃ r : ℝ, x0 i = (r : EReal)) (hw : ∀ i, ∃ r : ℝ, x3 i = (r : EReal))
    (hn : ∀ i, ∃ r : ℝ, nrm i = (r : EReal)) :
    Host.dotGeneral (F := Ideal) Cert.KernelIdeal.dot_S16384x128_S128x256_S16384x256_1_0_0_1_n_n none
        (Host.scatterAdd Cert.KernelIdeal.scatter_S16384x128_S278528x1_S278528x128_1_0_0_1
          (broadcastInDim Cert.KernelIdeal.S16384x128 ![] Cert.KernelIdeal.Facts₀.bcast_S_S16384x128
            (constant Cert.KernelIdeal.S_ .f32 0x00000000#32)) I
          (mulf (Host.gather Cert.KernelIdeal.gather_S16384x128_S278528x1_S278528x128_1_0_n_n_0_1_1128 x0 J)
            (broadcastInDim Cert.KernelIdeal.S278528x128 ![0, 1] Cert.KernelIdeal.Facts₀.bcast_S278528x1_S278528x128_0_1
              (broadcastInDim Cert.KernelIdeal.S278528x1 ![0] Cert.KernelIdeal.Facts₀.bcast_S278528_S278528x1_0 nrm))))
        (transpose Cert.KernelIdeal.S128x256 [1, 0] x3 Cert.KernelIdeal.Facts₀.transposes_S256x128_S128x256_1_0)
    = Host.scatterAdd Cert.ReferenceIdeal.scatter_S16384x256_S278528x1_S278528x256_1_0_0_1
        (broadcastInDim Cert.ReferenceIdeal.S16384x256 ![] Cert.ReferenceIdeal.Facts₀.bcast_S_S16384x256
          (constant Cert.ReferenceIdeal.S_ .f32 0x00000000#32)) I
        (mulf (Host.gather Cert.ReferenceIdeal.gather_S16384x256_S278528x1_S278528x256_1_0_n_n_0_1_1256
                (Host.dotGeneral Cert.ReferenceIdeal.dot_S16384x128_S128x256_S16384x256_1_0_0_1_n_n none x0
                  (transpose Cert.ReferenceIdeal.S128x256 [1, 0] x3 Cert.ReferenceIdeal.Facts₀.transposes_S256x128_S128x256_1_0)) J)
          (broadcastInDim Cert.ReferenceIdeal.S278528x256 ![0, 1] Cert.ReferenceIdeal.Facts₀.bcast_S278528x1_S278528x256_0_1
            (broadcastInDim Cert.ReferenceIdeal.S278528x1 ![0] Cert.ReferenceIdeal.Facts₀.bcast_S278528_S278528x1_0 nrm))) := by
  funext j
  obtain ⟨n, o, rfl⟩ : ∃ (n : Fin 16384) (o : Fin 256), j = ix2 n o := ⟨j 0, j 1, eq_ix2 j⟩
  rw [ref_agg_apply]
  refine Eq.trans (Idealize.ShloMosaic.PlainProduct.dotGeneral_transposed_apply
    Cert.KernelIdeal.dot_S16384x128_S128x256_S16384x256_1_0_0_1_n_n rfl none _ x3
    Cert.KernelIdeal.Facts₀.transposes_S256x128_S128x256_1_0 n o) ?_
  refine Eq.trans (Finset.sum_congr rfl fun k _ =>
    congrArg (fun t => t * x3 (ix2 o k)) (kernel_agg_apply x0 nrm I J n k)) ?_
  have hd : ∀ e : Fin 278528,
      Host.dotGeneral (F := Ideal) Cert.ReferenceIdeal.dot_S16384x128_S128x256_S16384x256_1_0_0_1_n_n none x0
          (transpose Cert.ReferenceIdeal.S128x256 [1, 0] x3 Cert.ReferenceIdeal.Facts₀.transposes_S256x128_S128x256_1_0)
          (ix2 (rowOf (by decide : 0 < 16384) J e) o)
        = ∑ k : Fin 128, x0 (ix2 (rowOf (by decide : 0 < 16384) J e) k) * x3 (ix2 o k) := fun e =>
    Idealize.ShloMosaic.PlainProduct.dotGeneral_transposed_apply
      Cert.ReferenceIdeal.dot_S16384x128_S128x256_S16384x256_1_0_0_1_n_n rfl none x0 x3
      Cert.ReferenceIdeal.Facts₀.transposes_S256x128_S128x256_1_0 _ o
  simp only [hd]
  exact segment_commute_ereal (fun e : Fin 278528 => (I (ix2 e 0)).toInt = (n.val : Int))
    (fun e k => x0 (ix2 (rowOf (by decide : 0 < 16384) J e) k)) (fun e => nrm (ix1 e)) (fun k => x3 (ix2 o k))
    (fun e k => hx _) (fun e => hn _) (fun k => hw _)

end Cert.Bridge

end
-- ==== Proof.DecodeCommute.lean ====
/-
  The decoder commutes with the per-node gather. One program applies the linear layer z_graph · Wᵀ + b to the
  16 graph rows and then gathers a row of the [16, 128] result for every node; the other gathers a row of z_graph for
  every node and then applies the layer to the [16384, 64] result. Both are, at (n, o),
  ∑ₖ z_graph (row n, k) · W (o, k) + b o, where row n is the node's start index read signed and clamped into [0, 15]:
  it reads the index array only, so it is the same row on both sides. Nothing here needs the entries to be finite.
-/
import proofs.«104691_j66305705116124_2_alg».proof.Proof.Gen.KernelIdeal
import proofs.«104691_j66305705116124_2_alg».proof.Proof.Gen.ReferenceIdeal
import proofs.«104691_j66305705116124_2_alg».proof.Proof.LibPlainProduct
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Idealize.ShloMosaic.PlainProduct

/-! ## A gather of whole rows, read at an index -/

section RowGather
variable {α : Type}

/-- The dimension numbers of a gather of whole rows: operand [R, C], start indices [N, 1], result [N, C]. -/
abbrev rowDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a result row reads: its start index, read signed and clamped into [0, R − 1]. -/
def rowOf {N w : Nat} (R : Nat) (hR : 0 < R) (idx : IVec ⟨2, ![N, 1]⟩ w) (n : Fin N) : Fin R :=
  ⟨min (idx (ix2 n (0 : Fin 1))).toInt.toNat (R - 1), by omega⟩

theorem gather_rows_apply {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (o : Fin C) :
    Host.gather (rowDims R C N wf) x idx (ix2 n o) = x (ix2 (rowOf R hR idx n) o) := by
  unfold Host.gather
  congr 1
  funext a
  refine Fin.ext ?_
  match a with
  | ⟨0, _⟩ =>
    show (rowDims R C N wf).start (ix2 n o) idx 0 + (rowDims R C N wf).batchCoord (ix2 n o) 0
      + (rowDims R C N wf).offCoord (ix2 n o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C N wf).startIndexMap from List.mem_singleton.mpr rfl)]
    have hsi : (rowDims R C N wf).siIdx (ix2 n o) ⟨List.idxOf (0 : Fin 2) (rowDims R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims R C N wf).start (ix2 n o) idx 1 + (rowDims R C N wf).batchCoord (ix2 n o) 1
      + (rowDims R C N wf).offCoord (ix2 n o) 1 = o.val
    rw [GatherDims.batchCoord_eq_zero _ _ _ List.not_mem_nil]
    unfold GatherDims.start
    rw [dif_neg (show ¬ (1 : Fin 2) ∈ (rowDims R C N wf).startIndexMap from fun h => Nat.one_ne_zero (congrArg Fin.val (List.mem_singleton.mp h)))]
    unfold GatherDims.offCoord
    rw [dif_pos (show (1 : Fin 2) ∈ (rowDims R C N wf).sKept from (GatherDims.mem_sKept _ _).mpr ⟨fun h => Nat.one_ne_zero (congrArg Fin.val (List.mem_singleton.mp h)), List.not_mem_nil⟩)]
    have e : ∀ (k : Nat) (hk : k < (rowDims R C N wf).offsetDims.length),
        (rowDims R C N wf).offsetDims[k]'hk = (1 : Fin 2) := fun k hk => by
      have h0 : k = 0 := by simpa using hk
      subst h0; rfl
    rw [e, Nat.zero_add]

end RowGather

/-! ## The bias: a vector [128] broadcast to a row [1, 128] and then down the rows -/

theorem bias_apply {A : Nat} {α : Type} (h1 : (⟨1, ![128]⟩ : Shape).BroadcastsInDim ⟨2, ![1, 128]⟩ ![1])
    (h2 : (⟨2, ![1, 128]⟩ : Shape).BroadcastsInDim ⟨2, ![A, 128]⟩ ![0, 1]) (v : (⟨1, ![128]⟩ : Shape).Idx → α)
    (a : Fin A) (b : Fin 128) :
    broadcastInDim ⟨2, ![A, 128]⟩ ![0, 1] h2 (broadcastInDim ⟨2, ![1, 128]⟩ ![1] h1 v) (ix2 a b) = v (ix1 b) := by
  rw [broadcastInDim_apply _ h2 _ (ix2 a b) (ix2 (0 : Fin 1) b) (fun ax => match ax with
    | ⟨0, _⟩ => by show 0 = if (1 : Nat) = 1 then 0 else a.val; rw [if_pos rfl]
    | ⟨1, _⟩ => by show b.val = if (128 : Nat) = 1 then 0 else b.val; rw [if_neg (by decide)])]
  exact broadcastInDim_apply _ h1 v (ix2 (0 : Fin 1) b) (ix1 b) (fun ax => match ax with
    | ⟨0, _⟩ => by show b.val = if (128 : Nat) = 1 then 0 else b.val; rw [if_neg (by decide)])

/-! ## The two orders agree -/

theorem decode_commute (zg : FVec Ideal Cert.KernelIdeal.S16x64 .f32) (x7 : FVec Ideal Cert.KernelIdeal.S128x64 .f32)
    (x8 : FVec Ideal Cert.KernelIdeal.S128 .f32) (J : IVec Cert.KernelIdeal.S16384x1 32) :
    Host.gather Cert.KernelIdeal.gather_S16x128_S16384x1_S16384x128_1_0_n_n_0_1_1128
        (addf (Host.dotGeneral (F := Ideal) Cert.KernelIdeal.dot_S16x64_S64x128_S16x128_1_0_0_1_n_n none zg
            (transpose Cert.KernelIdeal.S64x128 [1, 0] x7 Cert.KernelIdeal.Facts₀.transposes_S128x64_S64x128_1_0))
          (broadcastInDim Cert.KernelIdeal.S16x128 ![0, 1] Cert.KernelIdeal.Facts₀.bcast_S1x128_S16x128_0_1
            (broadcastInDim Cert.KernelIdeal.S1x128 ![1] Cert.KernelIdeal.Facts₀.bcast_S128_S1x128_1 x8))) J
      = addf (Host.dotGeneral (F := Ideal) Cert.ReferenceIdeal.dot_S16384x64_S64x128_S16384x128_1_0_0_1_n_n none
            (Host.gather Cert.ReferenceIdeal.gather_S16x64_S16384x1_S16384x64_1_0_n_n_0_1_164 zg J)
            (transpose Cert.ReferenceIdeal.S64x128 [1, 0] x7 Cert.ReferenceIdeal.Facts₀.transposes_S128x64_S64x128_1_0))
          (broadcastInDim Cert.ReferenceIdeal.S16384x128 ![0, 1] Cert.ReferenceIdeal.Facts₀.bcast_S1x128_S16384x128_0_1
            (broadcastInDim Cert.ReferenceIdeal.S1x128 ![1] Cert.ReferenceIdeal.Facts₀.bcast_S128_S1x128_1 x8)) := by
  funext i
  obtain ⟨n, o, rfl⟩ : ∃ (n : Fin 16384) (o : Fin 128), i = ix2 n o := ⟨i 0, i 1, eq_ix2 i⟩
  have h16 : 0 < 16 := by decide
  have gK := fun (X : (⟨2, ![16, 128]⟩ : Shape).Idx → EReal) =>
    gather_rows_apply h16 Cert.KernelIdeal.Facts₀.gather_S16x128_S16384x1_S16384x128_1_0_n_n_0_1_1128_wf X J n o
  have gR := fun (c : Fin 64) =>
    gather_rows_apply h16 Cert.ReferenceIdeal.Facts₀.gather_S16x64_S16384x1_S16384x64_1_0_n_n_0_1_164_wf zg J n c
  refine (gK _).trans ?_
  rw [addf_apply, addf_apply,
    dotGeneral_transposed_apply Cert.KernelIdeal.dot_S16x64_S64x128_S16x128_1_0_0_1_n_n rfl,
    dotGeneral_transposed_apply Cert.ReferenceIdeal.dot_S16384x64_S64x128_S16384x128_1_0_0_1_n_n rfl,
    bias_apply, bias_apply]
  congr 1
  exact Finset.sum_congr rfl fun c _ => by rw [← gR c]; rfl

end Cert.Bridge

end
-- ==== Proof.HostBridge.lean ====
/-
  The kernel's three host results are the reference's stages. Both programs compute the edge lists, the degrees and the
  edge weights by the same operations. For the node embedding the kernel sums the weighted neighbour features and then
  applies the first linear layer, where the reference applies the layer first; on real entries a linear map commutes with
  a weighted sum, and the rest of the chain (bias, rectifier, second layer) is the same. The pooled embedding is the same
  mean of the same embedding. For the reconstruction the kernel decodes the 16 pooled rows and then every node reads its
  graph's row, where the reference reads first and decodes every node's row; reading rows commutes with a map applied row
  by row.
-/
import proofs.«104691_j66305705116124_2_alg».proof.Proof.KernelStages
import proofs.«104691_j66305705116124_2_alg».proof.Proof.RefRead
import proofs.«104691_j66305705116124_2_alg».proof.Proof.AggCommute
import proofs.«104691_j66305705116124_2_alg».proof.Proof.DecodeCommute

noncomputable section
namespace Cert.Bridge
open Idealize.ShloMosaic
open Cert.KernelIdeal.HostValue Cert.ReferenceIdeal.Read

/-! ## The index and weight chains are the same operations in both programs -/

/-- Target node of every edge (self loops appended), as scatter indices. -/
theorem kcolIdx_eq (x1 : (⟨Cert.ReferenceIdeal.S2x262144, .i32⟩ : BufTy).Contents (Elt Ideal)) :
    kcolIdx (F := Ideal) x1 = val_main_v43 (F := Ideal) x1 := by
  unfold kcolIdx kcol val_main_v43 val_main_v6 val_main_v5 val_main_v4 val_main_v0
  rfl

/-- The same indices as the degree count reads them. -/
theorem kcolIdx_eq9 (x1 : (⟨Cert.ReferenceIdeal.S2x262144, .i32⟩ : BufTy).Contents (Elt Ideal)) :
    kcolIdx (F := Ideal) x1 = val_main_v9 (F := Ideal) x1 := by
  unfold kcolIdx kcol val_main_v9 val_main_v6 val_main_v5 val_main_v4 val_main_v0
  rfl

/-- Source node of every edge (self loops appended, a negative index wrapped), as gather indices. -/
theorem ksrcIdx_eq (x1 : (⟨Cert.ReferenceIdeal.S2x262144, .i32⟩ : BufTy).Contents (Elt Ideal)) :
    ksrcIdx (F := Ideal) x1 = val_main_v37 (F := Ideal) x1 := by
  unfold ksrcIdx kwrap krow val_main_v37 val_main_v36 val_main_v33 val_main_v35 val_main_v32 val_main_v34
    val_main_c_6 val_main_c_7 val_main_v3 val_main_v2 val_main_v1 val_main_v0
  rfl

/-- The same source indices as the weight chain reads them. -/
theorem ksrcIdx_eq20 (x1 : (⟨Cert.ReferenceIdeal.S2x262144, .i32⟩ : BufTy).Contents (Elt Ideal)) :
    ksrcIdx (F := Ideal) x1 = val_main_v20 (F := Ideal) x1 := by
  unfold ksrcIdx kwrap krow val_main_v20 val_main_v19 val_main_v16 val_main_v18 val_main_v15 val_main_v17
    val_main_c val_main_c_3 val_main_v3 val_main_v2 val_main_v1 val_main_v0
  rfl

/-- The wrapped target indices the weight chain gathers by. -/
theorem kcolWrapIdx_eq27 (x1 : (⟨Cert.ReferenceIdeal.S2x262144, .i32⟩ : BufTy).Contents (Elt Ideal)) :
    broadcastInDim Cert.KernelIdeal.S278528x1 ![0] Cert.KernelIdeal.Gen.bcast_S278528_S278528x1_0
        (kwrap (F := Ideal) (kcol (F := Ideal) x1)) = val_main_v27 (F := Ideal) x1 := by
  unfold kwrap kcol val_main_v27 val_main_v26 val_main_v23 val_main_v25 val_main_v22 val_main_v24
    val_main_c_4 val_main_c_5 val_main_v6 val_main_v5 val_main_v4 val_main_v0
  rfl

/-- The in-degree of every node. -/
theorem kdeg_eq (x1 : (⟨Cert.ReferenceIdeal.S2x262144, .i32⟩ : BufTy).Contents (Elt Ideal)) :
    kdeg (F := Ideal) x1 = val_main_v10 (F := Ideal) x1 := by
  unfold kdeg val_main_v10 val_main_v8 val_main_cst_0 val_main_v7 val_main_cst
  rw [kcolIdx_eq9]
  rfl

/-- The inverse square root of the degree, 0 where the degree is not positive. -/
theorem kdinv_eq (x1 : (⟨Cert.ReferenceIdeal.S2x262144, .i32⟩ : BufTy).Contents (Elt Ideal)) :
    kdinv (F := Ideal) x1 = val_main_v14 (F := Ideal) x1 := by
  unfold kdinv val_main_v14 val_main_v12 val_main_v13 val_main_v11 val_main_cst_1 val_main_call0_v1 val_main_call0_v0
    val_main_cst_2
  rw [kdeg_eq]

/-- The weight of every edge. -/
theorem knorm_eq (x1 : (⟨Cert.ReferenceIdeal.S2x262144, .i32⟩ : BufTy).Contents (Elt Ideal)) :
    knorm (F := Ideal) x1 = val_main_v29 (F := Ideal) x1 := by
  unfold knorm val_main_v29 val_main_v21 val_main_v28
  rw [kcolWrapIdx_eq27, ksrcIdx_eq20, kdinv_eq]
  rfl

/-- Every node's graph (a negative index wrapped), as gather indices. -/
theorem kbatchIdx_eq (x2 : (⟨Cert.ReferenceIdeal.S16384, .i32⟩ : BufTy).Contents (Elt Ideal)) :
    kbatchIdx (F := Ideal) x2 = val_main_v71 (F := Ideal) x2 := by
  unfold kbatchIdx val_main_v71 val_main_v70 val_main_v67 val_main_v69 val_main_v66 val_main_v68 val_main_c_13 val_main_c_14
  rfl

/-! ## The three host results -/

/-- The node embedding: the kernel sums the weighted neighbour features and then applies the first linear layer, the
    reference applies the layer and then sums; with real entries the two agree, and the rest of the chain is the same. -/
theorem z_eq (x0 : (⟨Cert.ReferenceIdeal.S16384x128, .f32⟩ : BufTy).Contents (Elt Ideal))
    (x1 : (⟨Cert.ReferenceIdeal.S2x262144, .i32⟩ : BufTy).Contents (Elt Ideal))
    (x3 : (⟨Cert.ReferenceIdeal.S256x128, .f32⟩ : BufTy).Contents (Elt Ideal))
    (x4 : (⟨Cert.ReferenceIdeal.S256, .f32⟩ : BufTy).Contents (Elt Ideal))
    (x5 : (⟨Cert.ReferenceIdeal.S64x256, .f32⟩ : BufTy).Contents (Elt Ideal))
    (x6 : (⟨Cert.ReferenceIdeal.S64, .f32⟩ : BufTy).Contents (Elt Ideal))
    (hx : ∀ i, ∃ r : ℝ, x0 i = (r : EReal)) (hw : ∀ i, ∃ r : ℝ, x3 i = (r : EReal))
    (hn : ∀ i, ∃ r : ℝ, Cert.ReferenceIdeal.Read.val_main_v29 (F := Ideal) x1 i = (r : EReal)) :
    Cert.KernelIdeal.HostValue.kz (F := Ideal) x0 x1 x3 x4 x5 x6
      = Cert.ReferenceIdeal.Read.val_main_v53 (F := Ideal) x0 x1 x3 x4 x5 x6 := by
  have hagg := agg_commute x0 x3 (val_main_v29 (F := Ideal) x1) (val_main_v43 (F := Ideal) x1)
    (val_main_v37 (F := Ideal) x1) hx hw hn
  unfold kz
  rw [kcolIdx_eq, ksrcIdx_eq, knorm_eq, hagg]
  unfold val_main_v53 val_main_v50 val_main_v52 val_main_v51 val_main_v49 val_main_v48 val_main_call1_v0
    val_main_call1_cst val_main_v47 val_main_v46 val_main_v45 val_main_v44 val_main_v42 val_main_cst_8 val_main_v41
    val_main_v40 val_main_v39 val_main_v38 val_main_v31 val_main_v30
  rfl

/-- The pooled embedding: the same mean over each graph's nodes, of the same embedding. -/
theorem pool_eq (x0 : (⟨Cert.ReferenceIdeal.S16384x128, .f32⟩ : BufTy).Contents (Elt Ideal))
    (x1 : (⟨Cert.ReferenceIdeal.S2x262144, .i32⟩ : BufTy).Contents (Elt Ideal))
    (x2 : (⟨Cert.ReferenceIdeal.S16384, .i32⟩ : BufTy).Contents (Elt Ideal))
    (x3 : (⟨Cert.ReferenceIdeal.S256x128, .f32⟩ : BufTy).Contents (Elt Ideal))
    (x4 : (⟨Cert.ReferenceIdeal.S256, .f32⟩ : BufTy).Contents (Elt Ideal))
    (x5 : (⟨Cert.ReferenceIdeal.S64x256, .f32⟩ : BufTy).Contents (Elt Ideal))
    (x6 : (⟨Cert.ReferenceIdeal.S64, .f32⟩ : BufTy).Contents (Elt Ideal))
    (hx : ∀ i, ∃ r : ℝ, x0 i = (r : EReal)) (hw : ∀ i, ∃ r : ℝ, x3 i = (r : EReal))
    (hn : ∀ i, ∃ r : ℝ, Cert.ReferenceIdeal.Read.val_main_v29 (F := Ideal) x1 i = (r : EReal)) :
    Cert.KernelIdeal.HostValue.kpoolOf (F := Ideal) (Cert.KernelIdeal.HostValue.kz (F := Ideal) x0 x1 x3 x4 x5 x6) x2
      = Cert.ReferenceIdeal.Read.val_main_v65 (F := Ideal) x0 x1 x2 x3 x4 x5 x6 := by
  rw [z_eq x0 x1 x3 x4 x5 x6 hx hw hn]
  unfold kpoolOf val_main_v65 val_main_v64 val_main_v63 val_main_v62 val_main_v61 val_main_cst_12 val_main_v60
    val_main_v59 val_main_v58 val_main_cst_11 val_main_v57 val_main_v56 val_main_v55 val_main_cst_10 val_main_v54
    val_main_cst_9
  rfl

/-- The reconstruction: the kernel decodes the 16 pooled rows and lets every node read its graph's row, the reference
    lets every node read its graph's pooled row and decodes all of them; a gather of rows commutes with a map applied
    row by row. -/
theorem xhat_eq (x0 : (⟨Cert.ReferenceIdeal.S16384x128, .f32⟩ : BufTy).Contents (Elt Ideal))
    (x1 : (⟨Cert.ReferenceIdeal.S2x262144, .i32⟩ : BufTy).Contents (Elt Ideal))
    (x2 : (⟨Cert.ReferenceIdeal.S16384, .i32⟩ : BufTy).Contents (Elt Ideal))
    (x3 : (⟨Cert.ReferenceIdeal.S256x128, .f32⟩ : BufTy).Contents (Elt Ideal))
    (x4 : (⟨Cert.ReferenceIdeal.S256, .f32⟩ : BufTy).Contents (Elt Ideal))
    (x5 : (⟨Cert.ReferenceIdeal.S64x256, .f32⟩ : BufTy).Contents (Elt Ideal))
    (x6 : (⟨Cert.ReferenceIdeal.S64, .f32⟩ : BufTy).Contents (Elt Ideal))
    (x7 : (⟨Cert.ReferenceIdeal.S128x64, .f32⟩ : BufTy).Contents (Elt Ideal))
    (x8 : (⟨Cert.ReferenceIdeal.S128, .f32⟩ : BufTy).Contents (Elt Ideal))
    (hx : ∀ i, ∃ r : ℝ, x0 i = (r : EReal)) (hw : ∀ i, ∃ r : ℝ, x3 i = (r : EReal))
    (hn : ∀ i, ∃ r : ℝ, Cert.ReferenceIdeal.Read.val_main_v29 (F := Ideal) x1 i = (r : EReal)) :
    Cert.KernelIdeal.HostValue.kxhatOf (F := Ideal)
        (Cert.KernelIdeal.HostValue.kpoolOf (F := Ideal) (Cert.KernelIdeal.HostValue.kz (F := Ideal) x0 x1 x3 x4 x5 x6) x2)
        x2 x7 x8
      = Cert.ReferenceIdeal.Read.val_main_v77 (F := Ideal) x0 x1 x2 x3 x4 x5 x6 x7 x8 := by
  rw [pool_eq x0 x1 x2 x3 x4 x5 x6 hx hw hn]
  unfold kxhatOf
  rw [kbatchIdx_eq]
  refine (decode_commute (val_main_v65 (F := Ideal) x0 x1 x2 x3 x4 x5 x6) x7 x8 (val_main_v71 (F := Ideal) x2)).trans ?_
  unfold val_main_v77 val_main_v76 val_main_v75 val_main_v74 val_main_v73 val_main_v72
  rfl

end Cert.Bridge
end
-- ==== Proof.SigmoidGram.lean ====
/-
  The reference's adjacency estimate is the logistic function of the Gram matrix of the node embedding: its last
  operations form z · zᵀ by one matrix product over the 64 features, then negate, exponentiate, add one and take the
  reciprocal of the sum, which over the extended reals is the logistic function of the inner product of two rows
  (division by zero and the infinities included: the logistic function is DEFINED as this expression).
  Nothing here needs the entries to be finite.
-/
import proofs.«104691_j66305705116124_2_alg».proof.Proof.Gen.ReferenceIdeal
import proofs.«104691_j66305705116124_2_alg».proof.Proof.LibPlainProduct
import proofs.«104691_j66305705116124_2_alg».proof.Proof.Gram
import Idealize.ShloMosaic.Lib.IdealHost

noncomputable section

open scoped BigOperators

namespace Cert.Bridge

open Idealize.ShloMosaic Idealize.ShloMosaic.ValueIdx Idealize.ShloMosaic.PlainProduct Cert.ReferenceIdeal

/-- Entry (a, b) of 1 / (1 + exp (−(z · zᵀ))) is logistic (∑ₖ z(a,k) · z(b,k)). -/
theorem sigmoid_gram (z : FVec Ideal S16384x64 .f32) :
    Host.divf (broadcastInDim S16384x16384 ![] Facts₀.bcast_S_S16384x16384 (constant (F := Ideal) S_ .f32 0x3F800000#32))
      (addf (broadcastInDim S16384x16384 ![] Facts₀.bcast_S_S16384x16384 (constant (F := Ideal) S_ .f32 0x3F800000#32))
        (Host.exp (Host.negf (Host.dotGeneral (F := Ideal) dot_S16384x64_S64x16384_S16384x16384_1_0_0_1_n_n none z
          (transpose S64x16384 [1, 0] z Facts₀.transposes_S16384x64_S64x16384_1_0)))))
      = gram z := by
  funext i
  obtain ⟨a, b, rfl⟩ : ∃ (a : Fin 16384) (b : Fin 16384), i = ix2 a b := ⟨i 0, i 1, eq_ix2 i⟩
  have hone : broadcastInDim S16384x16384 ![] Facts₀.bcast_S_S16384x16384 (constant (F := Ideal) S_ .f32 0x3F800000#32) (ix2 a b)
      = (1 : EReal) := by
    rw [broadcastInDim_scalar_apply, constant_apply]
    exact Ideal.ofBits_one_f32
  have hdot := dotGeneral_transposed_apply dot_S16384x64_S64x16384_S16384x16384_1_0_0_1_n_n rfl none z z
    Facts₀.transposes_S16384x64_S64x16384_1_0 a b
  rw [gram_apply, hostDivf_apply, addf_apply, hone]
  show Ideal.div 1 (1 + Ideal.exp (-(Host.dotGeneral (F := Ideal) dot_S16384x64_S64x16384_S16384x16384_1_0_0_1_n_n none z
    (transpose S64x16384 [1, 0] z Facts₀.transposes_S16384x64_S64x16384_1_0) (ix2 a b)))) = _
  rw [hdot]
  rfl

end Cert.Bridge

end
-- ==== Proof.RefAdjacency.lean ====
/-
  The reference's last stage is the logistic function of the Gram matrix of its embedding stage: the stages from the
  transpose to the final division are, unfolded, the expression 1 / (1 + exp (−(z · zᵀ))) at z the embedding stage.
-/
import proofs.«104691_j66305705116124_2_alg».proof.Proof.RefRead
import proofs.«104691_j66305705116124_2_alg».proof.Proof.SigmoidGram

noncomputable section

namespace Cert.Bridge

open Idealize.ShloMosaic Cert.ReferenceIdeal Cert.ReferenceIdeal.Read

/-- Entry (a, b) of the reference's last stage is logistic (∑ₖ z(a,k) · z(b,k)), z the embedding stage. -/
theorem ref_adjacency (x0 : (⟨S16384x128, .f32⟩ : BufTy).Contents (Elt Ideal)) (x1 : (⟨S2x262144, .i32⟩ : BufTy).Contents (Elt Ideal))
    (x3 : (⟨S256x128, .f32⟩ : BufTy).Contents (Elt Ideal)) (x4 : (⟨S256, .f32⟩ : BufTy).Contents (Elt Ideal))
    (x5 : (⟨S64x256, .f32⟩ : BufTy).Contents (Elt Ideal)) (x6 : (⟨S64, .f32⟩ : BufTy).Contents (Elt Ideal)) :
    val_main_v85 (F := Ideal) x0 x1 x3 x4 x5 x6 = gram (val_main_v53 (F := Ideal) x0 x1 x3 x4 x5 x6) := by
  unfold val_main_v85 val_main_v84 val_main_cst_16 val_main_v83 val_main_v82 val_main_cst_15 val_main_v81 val_main_v80
    val_main_v79 val_main_v78
  exact sigmoid_gram _

end Cert.Bridge

end
-- ==== Proof.RealArgs.lean ====
/-
  Finite inputs are real. The precondition computes, for each float argument array, whether every entry x has
  |x| < +∞, and asks that the conjunction of these be true. Read back: each conjunct is a reduction by "and" over all
  axes, so it is true only if the comparison holds at every index; and |x| = max x (-x) < ⊤ on the extended reals
  rules out both infinities, so x is a real number.
-/
import proofs.«104691_j66305705116124_2_alg».proof.Defs
import proofs.«104691_j66305705116124_2_alg».proof.Proof.Gen.Pre_finite_inputs
import Idealize.ShloMosaic.Lib.ReduceAll
import Idealize.ShloMosaic.Lib.IdealHost

noncomputable section
namespace Cert.Bridge
open Idealize.ShloMosaic Idealize.ShloMosaic.TcCoe Idealize.SL.Sem

/-- The rank-0 shape has one index. -/
instance subsingleton_scalar_idx : Subsingleton (⟨0, ![]⟩ : Shape).Idx := ⟨fun a b => funext fun d => d.elim0⟩

/-- An extended real x with max x (-x) < +∞ (the word 0x7F800000 is +∞) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- "all (|a| < +∞)" true: every entry of a is a real number. -/
theorem real_of_all_abs_lt_inf {s : Shape} {axes : List (Fin s.rank)} (a : FVec Ideal s .f32)
    (hb : (⟨0, ![]⟩ : Shape).BroadcastsInDim s ![]) (hr : s.ReducesTo axes (⟨0, ![]⟩ : Shape))
    (hu : 0 < (⟨0, ![]⟩ : Shape).numel)
    (e : Host.reduce IntOp.andi
          (cmpf .olt (Host.absf a) (broadcastInDim s ![] hb (constant (F := Ideal) (⟨0, ![]⟩ : Shape) .f32 0x7F800000#32)))
          (constantI (⟨0, ![]⟩ : Shape) 1 1#1) hr hu ValueIdx.ix0 = 1#1) :
    ∀ i, ∃ r : ℝ, a i = (r : EReal) := by
  intro i
  have hi := Host.reduce_andi_all _ _ hr hu _ e i
  rw [ValueIdx.cmpf_apply, ValueIdx.broadcastInDim_scalar_apply] at hi
  exact real_of_abs_lt_inf (a i) hi

open Cert.Pre_finite_inputs in
/-- The precondition's function true at the nine arguments: the node features and the first layer's weight are real. -/
theorem fn_real (a0 : FVec Ideal S16384x128 .f32) (a1 : IVec S2x262144 32) (a2 : IVec S16384 32)
    (a3 : FVec Ideal S256x128 .f32) (a4 : FVec Ideal S256 .f32) (a5 : FVec Ideal S64x256 .f32)
    (a6 : FVec Ideal S64 .f32) (a7 : FVec Ideal S128x64 .f32) (a8 : FVec Ideal S128 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) := by
  have h0 := congrFun h ValueIdx.ix0
  dsimp only [Cert.Pre_finite_inputs.fn, Cert.Pre_finite_inputs.fn_part1] at h0
  have e : ∀ (x y : IVec S_ 1) (i : S_.Idx), andi x y i = IntOp.andi (x i) (y i) := fun _ _ _ => rfl
  simp only [e, IntOp.andi_eq_one] at h0
  obtain ⟨⟨⟨⟨⟨⟨h0a, h3⟩, -⟩, -⟩, -⟩, -⟩, -⟩ := h0
  exact ⟨real_of_all_abs_lt_inf a0 _ _ _ h0a, real_of_all_abs_lt_inf a3 _ _ _ h3⟩

/-- Under the precondition the node features have real entries. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (fn_real _ _ _ _ _ _ _ _ _ (h c)).1

/-- Under the precondition the first layer's weight has real entries. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (fn_real _ _ _ _ _ _ _ _ _ (h c)).2

end Cert.Bridge
end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.RealNorm.lean ====
/-
  The edge weights are real. The degree of a node is a zero plus a sum of ones over the edges that point at it: a real
  number that is not negative. Where the degree is positive its reciprocal square root is a real number; where it is
  not, the normalisation takes the real 0 instead. So every entry of the inverse-square-root degree array is real; an
  entry of a gather is some entry of its operand, so both gathered arrays are real, and so is their product, the edge
  weight.
-/
import proofs.«104691_j66305705116124_2_alg».proof.Proof.RefRead
import proofs.«104691_j66305705116124_2_alg».proof.Proof.LibRealEntries
import Idealize.ShloMosaic.Lib.IdealHost

noncomputable section
namespace Cert.Bridge
open Idealize.ShloMosaic Idealize.ShloMosaic.TcCoe Idealize.SL.Sem
open Cert.ReferenceIdeal Cert.ReferenceIdeal.Gen Cert.ReferenceIdeal.Read Cert.LibRealEntries

/-- A finite sum of reals that are not negative is a real that is not negative. -/
theorem sum_real_nonneg {ι : Type*} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by simp⟩
  | insert a s ha ih =>
    obtain ⟨p, hp0, hp⟩ := h a (Finset.mem_insert_self a s)
    obtain ⟨q, hq0, hq⟩ := ih fun i hi => h i (Finset.mem_insert_of_mem hi)
    exact ⟨p + q, add_nonneg hp0 hq0, by rw [Finset.sum_insert ha, hp, hq, EReal.coe_add]⟩

/-- An accumulating scatter of nonnegative real updates into a nonnegative real operand has nonnegative real entries,
    whatever the indices. -/
theorem hostScatterAdd_real_nonneg {s si su : Shape} (d : ScatterDims s si su) {w : Nat} (x : s.Idx → EReal)
    (idx : IVec si w) (upd : su.Idx → EReal) (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨p, hp0, hp⟩ := hx i
  unfold Ideal.hostScatterAdd
  obtain ⟨q, hq0, hq⟩ :=
    sum_real_nonneg (Finset.univ.filter (fun j => d.resultIdx? j idx = some i)) upd (fun j _ => hu j)
  exact ⟨p + q, add_nonneg hp0 hq0, by rw [hp, hq, EReal.coe_add]⟩

/-- For any real r, "r > 0 ? 1/√r : 0" is real. -/
theorem select_pos_rsqrt_real (r : ℝ) :
    IsReal (Scalar.select (Ideal.cmp .ogt (r : EReal) 0) (Ideal.rsqrt (r : EReal)) 0) := by
  by_cases hpos : 0 < r
  · have hc : Ideal.cmp .ogt (r : EReal) 0 = 1#1 := by
      simp [Ideal.cmp, hpos]
    rw [hc, ValueIdx.select_one]
    exact isReal_rsqrt hpos
  · have hc : Ideal.cmp .ogt (r : EReal) 0 = 0#1 := by
      simp [Ideal.cmp, hpos]
    rw [hc, ValueIdx.select_zero]
    exact isReal_zero

/-- An entry of a gather is an entry of its operand: a gather of an array with real entries has real entries. -/
theorem isReal_gather {s si t : Shape} {w : Nat} (d : GatherDims s si t) (x : s.Idx → EReal) (idx : IVec si w)
    (hx : ∀ i, IsReal (x i)) (j : t.Idx) : IsReal (Host.gather d x idx j) := hx _

/-- The degree array: each entry is a real that is not negative. -/
theorem deg_real_nonneg (x1 : (⟨S2x262144, .i32⟩ : BufTy).Contents (Elt Ideal)) (i : S16384.Idx) :
    ∃ r : ℝ, 0 ≤ r ∧ val_main_v10 (F := Ideal) x1 i = (r : EReal) := by
  have hv8 : ∀ i, ∃ r : ℝ, 0 ≤ r ∧ val_main_v8 (F := Ideal) i = (r : EReal) := fun i =>
    ⟨0, le_refl 0, by rw [val_main_v8_apply, val_main_cst_0_apply, EReal.coe_zero]; exact Ideal.ofBits_zero_f32⟩
  have hv7 : ∀ j, ∃ r : ℝ, 0 ≤ r ∧ val_main_v7 (F := Ideal) j = (r : EReal) := fun j =>
    ⟨1, zero_le_one, by rw [val_main_v7_apply, val_main_cst_apply, EReal.coe_one]; exact Ideal.ofBits_one_f32⟩
  exact hostScatterAdd_real_nonneg scatter_S16384_S278528x1_S278528_n_0_0_1 (val_main_v8 (F := Ideal))
    (val_main_v9 (F := Ideal) x1) (val_main_v7 (F := Ideal)) hv8 hv7 i

/-- The inverse-square-root degree array (0 where the degree is not positive) has real entries. -/
theorem dinv_real (x1 : (⟨S2x262144, .i32⟩ : BufTy).Contents (Elt Ideal)) (i : S16384.Idx) :
    IsReal (val_main_v14 (F := Ideal) x1 i) := by
  obtain ⟨r, hr0, hr⟩ := deg_real_nonneg x1 i
  have hv11 : val_main_v11 (F := Ideal) i = 0 := by
    rw [val_main_v11_apply, val_main_cst_1_apply]; exact Ideal.ofBits_zero_f32
  have hz : val_main_call0_v1 (F := Ideal) i = 0 := by
    rw [val_main_call0_v1_apply, val_main_call0_v0_apply, val_main_cst_2_apply]; exact Ideal.ofBits_zero_f32
  rw [val_main_v14_apply, val_main_v12_apply, val_main_v13_apply, hr, hv11, hz]
  exact select_pos_rsqrt_real r

/-- The edge weights (the product of the two gathered inverse-square-root degrees) are real. -/
theorem norm_real (x1 : (⟨Cert.ReferenceIdeal.S2x262144, .i32⟩ : BufTy).Contents (Elt Ideal)) :
    ∀ i, ∃ r : ℝ, Cert.ReferenceIdeal.Read.val_main_v29 (F := Ideal) x1 i = (r : EReal) := by
  intro i
  have h21 : IsReal (val_main_v21 (F := Ideal) x1 i) := by
    unfold val_main_v21
    exact isReal_gather _ _ _ (dinv_real x1) i
  have h28 : IsReal (val_main_v28 (F := Ideal) x1 i) := by
    unfold val_main_v28
    exact isReal_gather _ _ _ (dinv_real x1) i
  rw [val_main_v29_apply]
  exact h21.mul h28

end Cert.Bridge
end
-- ==== Proof.Algebraic.lean ====
/-
  The algebraic claim, assembled. The four common values are the reference's stages (node embedding, pooled embedding,
  reconstruction, adjacency estimate) of the kernel's launch arguments. The kernel's run leaves in its result buffers
  what its host operations and its tiled call compute: the first three are the kernel's host stages, equal to the
  reference's stages on finite inputs; the fourth is the logistic Gram matrix of the embedding, which is what the
  reference's last stage is. The reference's run leaves its stages of its own arguments, which agree with the kernel's.
-/
import proofs.«104691_j66305705116124_2_alg».proof.Defs
import proofs.«104691_j66305705116124_2_alg».proof.Proof.KRunIdeal
import proofs.«104691_j66305705116124_2_alg».proof.Proof.TileValue
import proofs.«104691_j66305705116124_2_alg».proof.Proof.KernelHost
import proofs.«104691_j66305705116124_2_alg».proof.Proof.HostBridge
import proofs.«104691_j66305705116124_2_alg».proof.Proof.RefAdjacency
import proofs.«104691_j66305705116124_2_alg».proof.Proof.RealArgs
import proofs.«104691_j66305705116124_2_alg».proof.Proof.RealNorm

noncomputable section
namespace Cert.Proof.Parts
open Idealize.ShloMosaic Idealize.ShloMosaic.TcCoe Idealize.SL.Sem

/-! ## The common values: the reference's stages of the kernel's launch arguments -/

/-- The node embedding. -/
abbrev w53 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v53) :=
  Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- The pooled embedding. -/
abbrev w65 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v65) :=
  Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- The reconstruction. -/
abbrev w77 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v77) :=
  Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The adjacency estimate. -/
abbrev w85 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v78) :=
  Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-! ## The kernel's run -/

/-- The kernel runs, its four results end at the common values and its arguments unchanged. -/
theorem kernel_half (m : (ℓ : Loc Cert.KernelIdeal.nD Cert.KernelIdeal.τ Cert.KernelIdeal.sig) → Buf (Elt Ideal) ℓ) (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v53) = w53 m c
          ∧ r.2.mem ((c.tc : Thread Cert.KernelIdeal.nD Cert.KernelIdeal.τ).loc Cert.KernelIdeal.main_v65) = w65 m c
          ∧ r.2.mem ((c.tc : Thread Cert.KernelIdeal.nD Cert.KernelIdeal.τ).loc Cert.KernelIdeal.main_v77) = w77 m c
          ∧ r.2.mem ((c.tc : Thread Cert.KernelIdeal.nD Cert.KernelIdeal.τ).loc Cert.KernelIdeal.main_v78) = w85 m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
  refine (θ_run (Cert.KernelIdeal.defs (F := Ideal)) _ _).mono (fun r h c => ?_) (Cert.KernelIdeal.Tiles.run_call (F := Ideal) m ρ)
  have hx := Cert.Bridge.arg0_real m hpre c
  have hw := Cert.Bridge.arg3_real m hpre c
  have hn := Cert.Bridge.norm_real (m ((c.tc : Thread Cert.KernelIdeal.nD Cert.KernelIdeal.τ).loc Cert.KernelIdeal.main_arg1))
  have hz := (Cert.KernelIdeal.HostValue.entry_v53 (F := Ideal) m c).trans (Cert.Bridge.z_eq _ _ _ _ _ _ hx hw hn)
  refine ⟨?_, ?_, ?_, ?_, ?_, ?_, ?_, ?_, ?_, ?_, ?_, ?_, ?_⟩
  · exact ((h c).1 0).trans ((Cert.KernelIdeal.TileValue.embedding_final m c).trans hz)
  · exact ((h c).2 Cert.KernelIdeal.main_v65 (Pipeline.mem_restRefs_of Cert.KernelIdeal.main_v65 (by decide) (by decide))).trans
      ((Cert.KernelIdeal.HostValue.entry_v65 (F := Ideal) m c).trans (Cert.Bridge.pool_eq _ _ _ _ _ _ _ hx hw hn))
  · exact ((h c).2 Cert.KernelIdeal.main_v77 (Pipeline.mem_restRefs_of Cert.KernelIdeal.main_v77 (by decide) (by decide))).trans
      ((Cert.KernelIdeal.HostValue.entry_v77 (F := Ideal) m c).trans (Cert.Bridge.xhat_eq _ _ _ _ _ _ _ _ _ hx hw hn))
  · exact ((h c).1 2).trans ((Cert.KernelIdeal.TileValue.result_final m c).trans
      ((congrArg Cert.Bridge.gram hz).trans (Cert.Bridge.ref_adjacency _ _ _ _ _ _).symm))
  · exact ((h c).2 Cert.KernelIdeal.main_arg0 (Pipeline.mem_restRefs_of Cert.KernelIdeal.main_arg0 (by decide) (by decide))).trans
      (Cert.KernelIdeal.Tiles.entry_arg m c _ (by simp))
  · exact ((h c).2 Cert.KernelIdeal.main_arg1 (Pipeline.mem_restRefs_of Cert.KernelIdeal.main_arg1 (by decide) (by decide))).trans
      (Cert.KernelIdeal.Tiles.entry_arg m c _ (by simp))
  · exact ((h c).2 Cert.KernelIdeal.main_arg2 (Pipeline.mem_restRefs_of Cert.KernelIdeal.main_arg2 (by decide) (by decide))).trans
      (Cert.KernelIdeal.Tiles.entry_arg m c _ (by simp))
  · exact ((h c).2 Cert.KernelIdeal.main_arg3 (Pipeline.mem_restRefs_of Cert.KernelIdeal.main_arg3 (by decide) (by decide))).trans
      (Cert.KernelIdeal.Tiles.entry_arg m c _ (by simp))
  · exact ((h c).2 Cert.KernelIdeal.main_arg4 (Pipeline.mem_restRefs_of Cert.KernelIdeal.main_arg4 (by decide) (by decide))).trans
      (Cert.KernelIdeal.Tiles.entry_arg m c _ (by simp))
  · exact ((h c).2 Cert.KernelIdeal.main_arg5 (Pipeline.mem_restRefs_of Cert.KernelIdeal.main_arg5 (by decide) (by decide))).trans
      (Cert.KernelIdeal.Tiles.entry_arg m c _ (by simp))
  · exact ((h c).2 Cert.KernelIdeal.main_arg6 (Pipeline.mem_restRefs_of Cert.KernelIdeal.main_arg6 (by decide) (by decide))).trans
      (Cert.KernelIdeal.Tiles.entry_arg m c _ (by simp))
  · exact ((h c).2 Cert.KernelIdeal.main_arg7 (Pipeline.mem_restRefs_of Cert.KernelIdeal.main_arg7 (by decide) (by decide))).trans
      (Cert.KernelIdeal.Tiles.entry_arg m c _ (by simp))
  · exact ((h c).2 Cert.KernelIdeal.main_arg8 (Pipeline.mem_restRefs_of Cert.KernelIdeal.main_arg8 (by decide) (by decide))).trans
      (Cert.KernelIdeal.Tiles.entry_arg m c _ (by simp))

/-! ## The reference's run -/

/-- The reference runs from a memory that agrees with the kernel's on the arguments, its four results end at the
    common values and its arguments unchanged. -/
theorem reference_half (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
          r.2.mem ((c.tc : Thread Cert.ReferenceIdeal.nD Cert.ReferenceIdeal.τ).loc Cert.ReferenceIdeal.main_v53) = w53 m c
          ∧ r.2.mem ((c.tc : Thread Cert.ReferenceIdeal.nD Cert.ReferenceIdeal.τ).loc Cert.ReferenceIdeal.main_v65) = w65 m c
          ∧ r.2.mem ((c.tc : Thread Cert.ReferenceIdeal.nD Cert.ReferenceIdeal.τ).loc Cert.ReferenceIdeal.main_v77) = w77 m c
          ∧ r.2.mem ((c.tc : Thread Cert.ReferenceIdeal.nD Cert.ReferenceIdeal.τ).loc Cert.ReferenceIdeal.main_v85) = w85 m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) := by
  refine (θ_run (Cert.ReferenceIdeal.defs (F := Ideal)) _ _).mono (fun r h c => ?_) (Cert.ReferenceIdeal.Value.run (F := Ideal) m' ρ')
  obtain ⟨h53, h65, h77, h85, hargs⟩ := h c
  obtain ⟨a0, a1, a2, a3, a4, a5, a6, a7, a8⟩ := hagree c
  refine ⟨?_, ?_, ?_, ?_, hargs⟩
  · refine h53.trans ((Cert.ReferenceIdeal.Read.val_main_v53_eq m' c).trans ?_)
    rw [a0, a1, a3, a4, a5, a6]
  · refine h65.trans ((Cert.ReferenceIdeal.Read.val_main_v65_eq m' c).trans ?_)
    rw [a0, a1, a2, a3, a4, a5, a6]
  · refine h77.trans ((Cert.ReferenceIdeal.Read.val_main_v77_eq m' c).trans ?_)
    rw [a0, a1, a2, a3, a4, a5, a6, a7, a8]
  · refine h85.trans ((Cert.ReferenceIdeal.Read.val_main_v85_eq m' c).trans ?_)
    rw [a0, a1, a3, a4, a5, a6]

/-! ## The claim -/

/-- At the ideal instance the two programs, from memories that agree on the arguments, both run and end with equal
    results and unchanged arguments. -/
theorem algebraic : Cert.algebraic_KernelIdeal_ReferenceIdeal := by
  intro m ρ m' ρ' hpre hagree
  exact ⟨fun c => w53 m c, fun c => w65 m c, fun c => w77 m c, fun c => w85 m c,
    kernel_half m ρ hpre, reference_half m m' ρ' hagree⟩

end Cert.Proof.Parts
end
-- ==== Proof.lean ====
/-
  A graph autoencoder: one graph-convolution layer, a linear layer to a 64-dimensional node embedding z, a mean pool
  over the graphs of the batch, a linear decoder, and the adjacency estimate logistic(z zᵀ).

  The kernel's program and the reference compute the same four arrays over the extended reals, under the
  precondition that every float input is finite:

  * z. The layer's neighbourhood aggregation is a sum over edges, each edge's source row scaled by the edge's weight
    and added to its target row. The reference applies the layer's linear map to every node first and aggregates
    the 256-wide rows; the kernel aggregates the 128-wide inputs and applies the linear map once afterwards. The
    two agree because a linear map passes through a finite weighted sum — distributivity, which on the extended
    reals needs the inputs, the weights of the linear map and the edge weights to be real. The inputs are real by
    the precondition; an edge weight is a product of two inverse square roots of node degrees, a degree is a
    finite sum of ones, and the inverse square root is taken only where the degree is positive, so it is real too.
  * The pooled embedding is the same function of z and the batch indices on both sides.
  * The decoded features: the kernel decodes the 16 pooled rows and then picks each node's row, the reference
    picks rows first and decodes 16384 of them; picking rows commutes with a map applied row by row.
  * The adjacency estimate: the kernel computes it tile by tile, 1024 × 4096 at a time, each tile the logistic of
    the products of a block of rows of z with another block of rows; the reference as one matrix product followed by
    negate, exponential, add one, reciprocal, which is the logistic function. The tiles are the blocks of one array.

  The two programs around the kernel run to the end and leave their arguments unchanged: the node embedding is read
  by two windows of the tiled call at once, so it is lent to them in two halves.
-/
import proofs.«104691_j66305705116124_2_alg».proof.Defs
import proofs.«104691_j66305705116124_2_alg».proof.Proof.Gen.Kernel
import proofs.«104691_j66305705116124_2_alg».proof.Proof.Gen.KernelIdeal
import proofs.«104691_j66305705116124_2_alg».proof.Proof.Gen.ReferenceIdeal
import proofs.«104691_j66305705116124_2_alg».proof.Proof.Gen.Pre_finite_inputs
import proofs.«104691_j66305705116124_2_alg».proof.Proof.KRunBits
import proofs.«104691_j66305705116124_2_alg».proof.Proof.KRunIdeal
import proofs.«104691_j66305705116124_2_alg».proof.Proof.RefRun
import proofs.«104691_j66305705116124_2_alg».proof.Proof.Algebraic
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Tiles.frame (F := Bits) m ρ

/-- So does its reading over the extended reals. -/
theorem frame_kernelIdeal : Cert.frame_KernelIdeal := fun m ρ _ => Cert.KernelIdeal.Tiles.frame (F := Ideal) m ρ

/-- The reference is host operations only: its run names every result, and the arguments are among what it keeps. -/
theorem frame_reference : Cert.frame_ReferenceIdeal := fun m ρ _ =>
  (θ_run Cert.ReferenceIdeal.defs _ _).mono (fun _ h c => (h c).2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Parts.algebraic⟩

end Cert.Proof

end
